-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v159) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x3x2752 : Shape := ⟨3, ![16384, 3, 2752]⟩
abbrev S256x2752 : Shape := ⟨2, ![256, 2752]⟩
abbrev S256 : Shape := ⟨1, ![256]⟩
abbrev S256x256 : Shape := ⟨2, ![256, 256]⟩
abbrev S100x256 : Shape := ⟨2, ![100, 256]⟩
abbrev S100 : Shape := ⟨1, ![100]⟩
abbrev S_ : Shape := ⟨0, ![]⟩

class Facts : Prop where
  bcast_S_S16384x3x2752 : S_.BroadcastsInDim S16384x3x2752 (![] : Fin 0 → Fin S16384x3x2752.rank)
  reducesTo_S16384x3x2752_S_d0_1_2 : S16384x3x2752.ReducesTo [0, 1, 2] S_
  h_S_ : 0 < S_.numel
  bcast_S_S256x2752 : S_.BroadcastsInDim S256x2752 (![] : Fin 0 → Fin S256x2752.rank)
  reducesTo_S256x2752_S_d0_1 : S256x2752.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S100x256 : S_.BroadcastsInDim S100x256 (![] : Fin 0 → Fin S100x256.rank)
  reducesTo_S100x256_S_d0_1 : S100x256.ReducesTo [0, 1] S_
  bcast_S_S100 : S_.BroadcastsInDim S100 (![] : Fin 0 → Fin S100.rank)
  reducesTo_S100_S_d0 : S100.ReducesTo [0] S_

variable [Facts]

def fn_part1 {F : FTy → Type} [FloatOps F] (main_arg4 : FVec F S256 .f32) (main_arg5 : FVec F S100x256 .f32) (main_arg6 : FVec F S100 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S100x256 .f32 := Host.absf main_arg5
  let main_cst_8 : FVec F S_ .f32 := constant S_ .f32 0x7F800000#32
  let main_v25 : FVec F S100x256 .f32 := broadcastInDim S100x256 ![] bcast_S_S100x256 main_cst_8
  let main_v26 : IVec S100x256 1 := cmpf .olt main_v24 main_v25
  let main_c_9 : IVec S_ 1 := constantI S_ 1 1#1
  let main_v27 : IVec S_ 1 := (fun x v => Host.reduce IntOp.andi x v reducesTo_S100x256_S_d0_1 h_S_) main_v26 main_c_9
  let main_v28 : IVec S_ 1 := andi main_v23 main_v27
  let main_v29 : FVec F S100 .f32 := Host.absf main_arg6
  let main_cst_10 : FVec F S_ .f32 := constant S_ .f32 0x7F800000#32
  let main_v30 : FVec F S100 .f32 := broadcastInDim S100 ![] bcast_S_S100 main_cst_10
  let main_v31 : IVec S100 1 := cmpf .olt main_v29 main_v30
  let main_c_11 : IVec S_ 1 := constantI S_ 1 1#1
  let main_v32 : IVec S_ 1 := (fun x v => Host.reduce IntOp.andi x v reducesTo_S100_S_d0 h_S_) main_v31 main_c_11
  let main_v33 : IVec S_ 1 := andi main_v28 main_v32
  main_v33

def fn {F : FTy → Type} [FloatOps F] (main_arg0 : FVec F S16384x3x2752 .f32) (main_arg1 : FVec F S256x2752 .f32) (main_arg2 : FVec F S256 .f32) (main_arg3 : FVec F S256x256 .f32) (main_arg4 : FVec F S256 .f32) (main_arg5 : FVec F S100x256 .f32) (main_arg6 : FVec F S100 .f32) : IVec S_ 1 :=
  let main_v0 : FVec F S16384x3x2752 .f32 := Host.absf main_arg0
  let main_cst : FVec F S_ .f32 := constant S_ .f32 0x7F800000#32
  let main_v1 : FVec F S16384x3x2752 .f32 := broadcastInDim S16384x3x2752 ![] bcast_S_S16384x3x2752 main_cst
  let main_v2 : IVec S16384x3x2752 1 := cmpf .olt main_v0 main_v1
  let main_c : IVec S_ 1 := constantI S_ 1 1#1
  let main_v3 : IVec S_ 1 := (fun x v => Host.reduce IntOp.andi x v reducesTo_S16384x3x2752_S_d0_1_2 h_S_) main_v2 main_c
  let main_v4 : FVec F S256x2752 .f32 := Host.absf main_arg1
  let main_cst_0 : FVec F S_ .f32 := constant S_ .f32 0x7F800000#32
  let main_v5 : FVec F S256x2752 .f32 := broadcastInDim S256x2752 ![] bcast_S_S256x2752 main_cst_0
  let main_v6 : IVec S256x2752 1 := cmpf .olt main_v4 main_v5
  let main_c_1 : IVec S_ 1 := constantI S_ 1 1#1
  let main_v7 : IVec S_ 1 := (fun x v => Host.reduce IntOp.andi x v reducesTo_S256x2752_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x256 .f32 := Host.absf main_arg3
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg4 main_arg5 main_arg6 main_v13 main_v16
-- ==== Kernel.lean ====
abbrev S16384x3x2752 : Shape := ⟨3, ![16384, 3, 2752]⟩
abbrev S256x2752 : Shape := ⟨2, ![256, 2752]⟩
abbrev S256 : Shape := ⟨1, ![256]⟩
abbrev S256x256 : Shape := ⟨2, ![256, 256]⟩
abbrev S100x256 : Shape := ⟨2, ![100, 256]⟩
abbrev S100 : Shape := ⟨1, ![100]⟩
abbrev S16384x8256 : Shape := ⟨2, ![16384, 8256]⟩
abbrev S_ : Shape := ⟨0, ![]⟩
abbrev S128x256 : Shape := ⟨2, ![128, 256]⟩
abbrev S128 : Shape := ⟨1, ![128]⟩
abbrev S1x256 : Shape := ⟨2, ![1, 256]⟩
abbrev S1x128 : Shape := ⟨2, ![1, 128]⟩
abbrev S16384x128 : Shape := ⟨2, ![16384, 128]⟩
abbrev S256x8256 : Shape := ⟨2, ![256, 8256]⟩
abbrev S256x128 : Shape := ⟨2, ![256, 128]⟩
abbrev S16384x100 : Shape := ⟨2, ![16384, 100]⟩

abbrev nBuf : Space → Nat
  | .hbm => 19
  | .vmem => 10
  | .smem => 0
  | _ => 0

abbrev bufTy : (tb : Table) → Fin (tcTables nBuf tb) → BufTy
  | .hbm, ⟨0, _⟩ => ⟨S16384x3x2752, .f32⟩
  | .hbm, ⟨1, _⟩ => ⟨S256x2752, .f32⟩
  | .hbm, ⟨2, _⟩ => ⟨S256, .f32⟩
  | .hbm, ⟨3, _⟩ => ⟨S256x256, .f32⟩
  | .hbm, ⟨4, _⟩ => ⟨S256, .f32⟩
  | .hbm, ⟨5, _⟩ => ⟨S100x256, .f32⟩
  | .hbm, ⟨6, _⟩ => ⟨S100, .f32⟩
  | .hbm, ⟨7, _⟩ => ⟨S16384x8256, .f32⟩
  | .hbm, ⟨8, _⟩ => ⟨S_, .i32⟩
  | .hbm, ⟨9, _⟩ => ⟨S_, .f32⟩
  | .hbm, ⟨10, _⟩ => ⟨S128x256, .f32⟩
  | .hbm, ⟨11, _⟩ => ⟨S_, .i32⟩
  | .hbm, ⟨12, _⟩ => ⟨S_, .f32⟩
  | .hbm, ⟨13, _⟩ => ⟨S128, .f32⟩
  | .hbm, ⟨14, _⟩ => ⟨S1x256, .f32⟩
  | .hbm, ⟨15, _⟩ => ⟨S1x256, .f32⟩
  | .hbm, ⟨16, _⟩ => ⟨S1x128, .f32⟩
  | .hbm, ⟨17, _⟩ => ⟨S16384x128, .f32⟩
  | .hbm, ⟨18, _⟩ => ⟨S16384x100, .f32⟩
  | .local _ .vmem, ⟨0, _⟩ => ⟨S256x8256, .f32⟩
  | .local _ .vmem, ⟨1, _⟩ => ⟨S256x8256, .f32⟩
  | .local _ .vmem, ⟨2, _⟩ => ⟨S256x2752, .f32⟩
  | .local _ .vmem, ⟨3, _⟩ => ⟨S1x256, .f32⟩
  | .local _ .vmem, ⟨4, _⟩ => ⟨S256x256, .f32⟩
  | .local _ .vmem, ⟨5, _⟩ => ⟨S1x256, .f32⟩
  | .local _ .vmem, ⟨6, _⟩ => ⟨S128x256, .f32⟩
  | .local _ .vmem, ⟨7, _⟩ => ⟨S1x128, .f32⟩
  | .local _ .vmem, ⟨8, _⟩ => ⟨S256x128, .f32⟩
  | .local _ .vmem, ⟨9, _⟩ => ⟨S256x128, .f32⟩
  | _, _ => ⟨S16384x3x2752, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_call0_v0 : Ref sig .tc := ⟨.hbm, 9, rfl⟩
abbrev main_v1 : Ref sig .tc := ⟨.hbm, 10, rfl⟩
abbrev main_c_0 : Ref sig .tc := ⟨.hbm, 11, rfl⟩
abbrev main_call1_v0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x8256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x2752 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  shapeCasts_S16384x3x2752_S16384x8256 : S16384x3x2752.ShapeCasts S16384x8256
  pads_S100x256_S128x256_0280_000 : S100x256.Pads (![0, 0] : Fin 2 → Nat) ![28, 0] ![0, 0] S128x256
  h_S_ : 0 < S_.numel
  pads_S100_S128_0280 : S100.Pads (![0] : Fin 1 → Nat) ![28] ![0] S128
  shapeCasts_S256_S1x256 : S256.ShapeCasts S1x256
  shapeCasts_S128_S1x128 : S128.ShapeCasts S1x128
  inb_S256x2752_S256x2752_0_0 : ∀ a, (![0, 0] : Fin 2 → Nat) a + S256x2752.size a ≤ S256x2752.size a
  h_S256x2752 : 0 < S256x2752.numel
  inb_S256x256_S256x256_0_0 : ∀ a, (![0, 0] : Fin 2 → Nat) a + S256x256.size a ≤ S256x256.size a
  h_S256x256 : 0 < S256x256.numel
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S256x8256_S256x2752_0_0 : ∀ a, (![0, 0] : Fin 2 → Nat) a + S256x2752.size a ≤ S256x8256.size a
  shapeCasts_S256x2752_S256x2752 : S256x2752.ShapeCasts S256x2752
  broadcasts_S1x256_S256x256 : S1x256.Broadcasts S256x256
  natLt_1_32 : 1 < 32
  broadcasts_S1x128_S256x128 : S1x128.Broadcasts S256x128
  inb_S256x8256_S256x2752_0_2752 : ∀ a, (![0, 2752] : Fin 2 → Nat) a + S256x2752.size a ≤ S256x8256.size a
  inb_S256x8256_S256x2752_0_5504 : ∀ a, (![0, 5504] : Fin 2 → Nat) a + S256x2752.size a ≤ S256x8256.size a
  inb_S256x128_S256x128_0_0 : ∀ a, (![0, 0] : Fin 2 → Nat) a + S256x128.size a ≤ S256x128.size a
  h_S256x128 : 0 < S256x128.numel
  slices_S16384x128_S16384x100_0_0 : S16384x128.Slices ![0, 0] S16384x100
  dot_S256x2752_S256x2752_S256x256_1_1_0_0_n_n_wf : DotDims.WF S256x2752 S256x2752 S256x256 [1] [1] [0] [0] [] []
  dot_S256x256_S256x256_S256x256_1_1_0_0_n_n_wf : DotDims.WF S256x256 S256x256 S256x256 [1] [1] [0] [0] [] []
  dot_S256x256_S128x256_S256x128_1_1_0_0_n_n_wf : DotDims.WF S256x256 S128x256 S256x128 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x8256.size a ≤ S16384x8256.size a
  hwx0_0 : ∀ i : grid0.Coords, EltTy.bits .f32 = 32 ∨ (Rect.block (s := S16384x8256) S256x8256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x2752.size a ≤ S256x2752.size a
  hwx0_1 : ∀ i : grid0.Coords, EltTy.bits .f32 = 32 ∨ (Rect.block (s := S256x2752) S256x2752.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .f32 = 32 ∨ (Rect.block (s := S256x256) S256x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x256.size a ≤ S128x256.size a
  hwx0_5 : ∀ i : grid0.Coords, EltTy.bits .f32 = 32 ∨ (Rect.block (s := S128x256) S128x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S256x128.size a ≤ S16384x128.size a
  hwx0_7 : ∀ i : grid0.Coords, EltTy.bits .f32 = 32 ∨ (Rect.block (s := S16384x128) S256x128.size (cc0_transform_7 i) (hinb0_7 i)).WholeWords (EltTy.packing .f32)

variable [Facts₀]

def dot_S256x2752_S256x2752_S256x256_1_1_0_0_n_n : DotDims S256x2752 S256x2752 S256x256 where
  lhsContracting := [1]
  rhsContracting := [1]
  lhsNonContracting := [0]
  rhsNonContracting := [0]
  lhsBatch := []
  rhsBatch := []
  wf := dot_S256x2752_S256x2752_S256x256_1_1_0_0_n_n_wf
def dot_S256x256_S256x256_S256x256_1_1_0_0_n_n : DotDims S256x256 S256x256 S256x256 where
  lhsContracting := [1]
  rhsContracting := [1]
  lhsNonContracting := [0]
  rhsNonContracting := [0]
  lhsBatch := []
  rhsBatch := []
  wf := dot_S256x256_S256x256_S256x256_1_1_0_0_n_n_wf
def dot_S256x256_S128x256_S256x128_1_1_0_0_n_n : DotDims S256x256 S128x256 S256x128 where
  lhsContracting := [1]
  rhsContracting := [1]
  lhsNonContracting := [0]
  rhsNonContracting := [0]
  lhsBatch := []
  rhsBatch := []
  wf := dot_S256x256_S128x256_S256x128_1_1_0_0_n_n_wf

abbrev win0_0 : Pipeline.Window sig grid0 :=
  Pipeline.Window.ofSpec (Memref.whole main_v0) S256x8256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x2752.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S128x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v5) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v6) S256x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S16384x3x2752 : Shape := ⟨3, ![16384, 3, 2752]⟩
abbrev S256x2752 : Shape := ⟨2, ![256, 2752]⟩
abbrev S256 : Shape := ⟨1, ![256]⟩
abbrev S256x256 : Shape := ⟨2, ![256, 256]⟩
abbrev S100x256 : Shape := ⟨2, ![100, 256]⟩
abbrev S100 : Shape := ⟨1, ![100]⟩
abbrev S3x16384x2752 : Shape := ⟨3, ![3, 16384, 2752]⟩
abbrev S_ : Shape := ⟨0, ![]⟩
abbrev S16384x256 : Shape := ⟨2, ![16384, 256]⟩
abbrev S16384x100 : Shape := ⟨2, ![16384, 100]⟩
abbrev S1x16384x2752 : Shape := ⟨3, ![1, 16384, 2752]⟩
abbrev S16384x2752 : Shape := ⟨2, ![16384, 2752]⟩
abbrev S2752x256 : Shape := ⟨2, ![2752, 256]⟩
abbrev S1x256 : Shape := ⟨2, ![1, 256]⟩
abbrev S256x100 : Shape := ⟨2, ![256, 100]⟩
abbrev S1x100 : Shape := ⟨2, ![1, 100]⟩

abbrev nBuf : Space → Nat
  | .hbm => 209
  | .vmem => 0
  | .smem => 0
  | _ => 0

abbrev hbmTy0_0 (i : Nat) : BufTy := match i % 128 with
  | 0 => ⟨S16384x3x2752, .f32⟩
  | 1 => ⟨S256x2752, .f32⟩
  | 2 => ⟨S256, .f32⟩
  | 3 => ⟨S256x256, .f32⟩
  | 4 => ⟨S256, .f32⟩
  | 5 => ⟨S100x256, .f32⟩
  | 6 => ⟨S100, .f32⟩
  | 7 => ⟨S3x16384x2752, .f32⟩
  | 8 => ⟨S_, .f32⟩
  | 9 => ⟨S16384x256, .f32⟩
  | 10 => ⟨S_, .f32⟩
  | 11 => ⟨S16384x256, .f32⟩
  | 12 => ⟨S_, .f32⟩
  | 13 => ⟨S16384x100, .f32⟩
  | 14 => ⟨S1x16384x2752, .f32⟩
  | 15 => ⟨S16384x2752, .f32⟩
  | 16 => ⟨S2752x256, .f32⟩
  | 17 => ⟨S16384x256, .f32⟩
  | 18 => ⟨S1x256, .f32⟩
  | 19 => ⟨S16384x256, .f32⟩
  | 20 => ⟨S16384x256, .f32⟩
  | 21 => ⟨S16384x256, .f32⟩
  | 22 => ⟨S_, .f32⟩
  | 23 => ⟨S16384x256, .f32⟩
  | 24 => ⟨S16384x256, .f32⟩
  | 25 => ⟨S16384x256, .f32⟩
  | 26 => ⟨S_, .f32⟩
  | 27 => ⟨S16384x256, .f32⟩
  | 28 => ⟨S16384x256, .f32⟩
  | 29 => ⟨S_, .f32⟩
  | 30 => ⟨S16384x256, .f32⟩
  | 31 => ⟨S16384x256, .i1⟩
  | 32 => ⟨S16384x256, .f32⟩
  | 33 => ⟨S_, .f32⟩
  | 34 => ⟨S16384x256, .f32⟩
  | 35 => ⟨S16384x256, .f32⟩
  | 36 => ⟨S16384x256, .f32⟩
  | 37 => ⟨S256x256, .f32⟩
  | 38 => ⟨S16384x256, .f32⟩
  | 39 => ⟨S1x256, .f32⟩
  | 40 => ⟨S16384x256, .f32⟩
  | 41 => ⟨S16384x256, .f32⟩
  | 42 => ⟨S16384x256, .f32⟩
  | 43 => ⟨S_, .f32⟩
  | 44 => ⟨S16384x256, .f32⟩
  | 45 => ⟨S16384x256, .f32⟩
  | 46 => ⟨S16384x256, .f32⟩
  | 47 => ⟨S_, .f32⟩
  | 48 => ⟨S16384x256, .f32⟩
  | 49 => ⟨S16384x256, .f32⟩
  | 50 => ⟨S_, .f32⟩
  | 51 => ⟨S16384x256, .f32⟩
  | 52 => ⟨S16384x256, .i1⟩
  | 53 => ⟨S16384x256, .f32⟩
  | 54 => ⟨S_, .f32⟩
  | 55 => ⟨S16384x256, .f32⟩
  | 56 => ⟨S16384x256, .f32⟩
  | 57 => ⟨S16384x256, .f32⟩
  | 58 => ⟨S256x100, .f32⟩
  | 59 => ⟨S16384x100, .f32⟩
  | 60 => ⟨S1x100, .f32⟩
  | 61 => ⟨S16384x100, .f32⟩
  | 62 => ⟨S16384x100, .f32⟩
  | 63 => ⟨S16384x100, .f32⟩
  | 64 => ⟨S_, .f32⟩
  | 65 => ⟨S16384x100, .f32⟩
  | 66 => ⟨S16384x100, .f32⟩
  | 67 => ⟨S16384x100, .f32⟩
  | 68 => ⟨S_, .f32⟩
  | 69 => ⟨S16384x100, .f32⟩
  | 70 => ⟨S16384x100, .f32⟩
  | 71 => ⟨S_, .f32⟩
  | 72 => ⟨S16384x100, .f32⟩
  | 73 => ⟨S16384x100, .i1⟩
  | 74 => ⟨S16384x100, .f32⟩
  | 75 => ⟨S_, .f32⟩
  | 76 => ⟨S16384x100, .f32⟩
  | 77 => ⟨S16384x100, .f32⟩
  | 78 => ⟨S16384x100, .f32⟩
  | 79 => ⟨S1x16384x2752, .f32⟩
  | 80 => ⟨S16384x2752, .f32⟩
  | 81 => ⟨S2752x256, .f32⟩
  | 82 => ⟨S16384x256, .f32⟩
  | 83 => ⟨S1x256, .f32⟩
  | 84 => ⟨S16384x256, .f32⟩
  | 85 => ⟨S16384x256, .f32⟩
  | 86 => ⟨S16384x256, .f32⟩
  | 87 => ⟨S_, .f32⟩
  | 88 => ⟨S16384x256, .f32⟩
  | 89 => ⟨S16384x256, .f32⟩
  | 90 => ⟨S16384x256, .f32⟩
  | 91 => ⟨S_, .f32⟩
  | 92 => ⟨S16384x256, .f32⟩
  | 93 => ⟨S16384x256, .f32⟩
  | 94 => ⟨S_, .f32⟩
  | 95 => ⟨S16384x256, .f32⟩
  | 96 => ⟨S16384x256, .i1⟩
  | 97 => ⟨S16384x256, .f32⟩
  | 98 => ⟨S_, .f32⟩
  | 99 => ⟨S16384x256, .f32⟩
  | 100 => ⟨S16384x256, .f32⟩
  | 101 => ⟨S16384x256, .f32⟩
  | 102 => ⟨S256x256, .f32⟩
  | 103 => ⟨S16384x256, .f32⟩
  | 104 => ⟨S1x256, .f32⟩
  | 105 => ⟨S16384x256, .f32⟩
  | 106 => ⟨S16384x256, .f32⟩
  | 107 => ⟨S16384x256, .f32⟩
  | 108 => ⟨S_, .f32⟩
  | 109 => ⟨S16384x256, .f32⟩
  | 110 => ⟨S16384x256, .f32⟩
  | 111 => ⟨S16384x256, .f32⟩
  | 112 => ⟨S_, .f32⟩
  | 113 => ⟨S16384x256, .f32⟩
  | 114 => ⟨S16384x256, .f32⟩
  | 115 => ⟨S_, .f32⟩
  | 116 => ⟨S16384x256, .f32⟩
  | 117 => ⟨S16384x256, .i1⟩
  | 118 => ⟨S16384x256, .f32⟩
  | 119 => ⟨S_, .f32⟩
  | 120 => ⟨S16384x256, .f32⟩
  | 121 => ⟨S16384x256, .f32⟩
  | 122 => ⟨S16384x256, .f32⟩
  | 123 => ⟨S256x100, .f32⟩
  | 124 => ⟨S16384x100, .f32⟩
  | 125 => ⟨S1x100, .f32⟩
  | 126 => ⟨S16384x100, .f32⟩
  | 127 => ⟨S16384x100, .f32⟩
  | _ => ⟨S16384x3x2752, .f32⟩

abbrev hbmTy0_1 (i : Nat) : BufTy := match i % 128 with
  | 0 => ⟨S16384x100, .f32⟩
  | 1 => ⟨S_, .f32⟩
  | 2 => ⟨S16384x100, .f32⟩
  | 3 => ⟨S16384x100, .f32⟩
  | 4 => ⟨S16384x100, .f32⟩
  | 5 => ⟨S_, .f32⟩
  | 6 => ⟨S16384x100, .f32⟩
  | 7 => ⟨S16384x100, .f32⟩
  | 8 => ⟨S_, .f32⟩
  | 9 => ⟨S16384x100, .f32⟩
  | 10 => ⟨S16384x100, .i1⟩
  | 11 => ⟨S16384x100, .f32⟩
  | 12 => ⟨S_, .f32⟩
  | 13 => ⟨S16384x100, .f32⟩
  | 14 => ⟨S16384x100, .f32⟩
  | 15 => ⟨S16384x100, .f32⟩
  | 16 => ⟨S1x16384x2752, .f32⟩
  | 17 => ⟨S16384x2752, .f32⟩
  | 18 => ⟨S2752x256, .f32⟩
  | 19 => ⟨S16384x256, .f32⟩
  | 20 => ⟨S1x256, .f32⟩
  | 21 => ⟨S16384x256, .f32⟩
  | 22 => ⟨S16384x256, .f32⟩
  | 23 => ⟨S16384x256, .f32⟩
  | 24 => ⟨S_, .f32⟩
  | 25 => ⟨S16384x256, .f32⟩
  | 26 => ⟨S16384x256, .f32⟩
  | 27 => ⟨S16384x256, .f32⟩
  | 28 => ⟨S_, .f32⟩
  | 29 => ⟨S16384x256, .f32⟩
  | 30 => ⟨S16384x256, .f32⟩
  | 31 => ⟨S_, .f32⟩
  | 32 => ⟨S16384x256, .f32⟩
  | 33 => ⟨S16384x256, .i1⟩
  | 34 => ⟨S16384x256, .f32⟩
  | 35 => ⟨S_, .f32⟩
  | 36 => ⟨S16384x256, .f32⟩
  | 37 => ⟨S16384x256, .f32⟩
  | 38 => ⟨S16384x256, .f32⟩
  | 39 => ⟨S256x256, .f32⟩
  | 40 => ⟨S16384x256, .f32⟩
  | 41 => ⟨S1x256, .f32⟩
  | 42 => ⟨S16384x256, .f32⟩
  | 43 => ⟨S16384x256, .f32⟩
  | 44 => ⟨S16384x256, .f32⟩
  | 45 => ⟨S_, .f32⟩
  | 46 => ⟨S16384x256, .f32⟩
  | 47 => ⟨S16384x256, .f32⟩
  | 48 => ⟨S16384x256, .f32⟩
  | 49 => ⟨S_, .f32⟩
  | 50 => ⟨S16384x256, .f32⟩
  | 51 => ⟨S16384x256, .f32⟩
  | 52 => ⟨S_, .f32⟩
  | 53 => ⟨S16384x256, .f32⟩
  | 54 => ⟨S16384x256, .i1⟩
  | 55 => ⟨S16384x256, .f32⟩
  | 56 => ⟨S_, .f32⟩
  | 57 => ⟨S16384x256, .f32⟩
  | 58 => ⟨S16384x256, .f32⟩
  | 59 => ⟨S16384x256, .f32⟩
  | 60 => ⟨S256x100, .f32⟩
  | 61 => ⟨S16384x100, .f32⟩
  | 62 => ⟨S1x100, .f32⟩
  | 63 => ⟨S16384x100, .f32⟩
  | 64 => ⟨S16384x100, .f32⟩
  | 65 => ⟨S16384x100, .f32⟩
  | 66 => ⟨S_, .f32⟩
  | 67 => ⟨S16384x100, .f32⟩
  | 68 => ⟨S16384x100, .f32⟩
  | 69 => ⟨S16384x100, .f32⟩
  | 70 => ⟨S_, .f32⟩
  | 71 => ⟨S16384x100, .f32⟩
  | 72 => ⟨S16384x100, .f32⟩
  | 73 => ⟨S_, .f32⟩
  | 74 => ⟨S16384x100, .f32⟩
  | 75 => ⟨S16384x100, .i1⟩
  | 76 => ⟨S16384x100, .f32⟩
  | 77 => ⟨S_, .f32⟩
  | 78 => ⟨S16384x100, .f32⟩
  | 79 => ⟨S16384x100, .f32⟩
  | 80 => ⟨S16384x100, .f32⟩
  | _ => ⟨S16384x3x2752, .f32⟩

abbrev hbmTy (i : Nat) : BufTy := match i / 128 with
  | 0 => hbmTy0_0 i
  | 1 => hbmTy0_1 i
  | _ => ⟨S16384x3x2752, .f32⟩

abbrev bufTy : (tb : Table) → Fin (tcTables nBuf tb) → BufTy
  | .hbm, ⟨i, _⟩ => hbmTy i
  | _, _ => ⟨S16384x3x2752, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_cst_0 : Ref sig .tc := ⟨.hbm, 10, rfl⟩
abbrev main_v2 : Ref sig .tc := ⟨.hbm, 11, rfl⟩
abbrev main_cst_1 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_2 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_3 : Ref sig .tc := ⟨.hbm, 26, rfl⟩
abbrev main_v15 : Ref sig .tc := ⟨.hbm, 27, rfl⟩
abbrev main_v16 : Ref sig .tc := ⟨.hbm, 28, rfl⟩
abbrev main_cst_4 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_5 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_6 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_7 : Ref sig .tc := ⟨.hbm, 47, rfl⟩
abbrev main_v32 : Ref sig .tc := ⟨.hbm, 48, rfl⟩
abbrev main_v33 : Ref sig .tc := ⟨.hbm, 49, rfl⟩
abbrev main_cst_8 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_9 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_cst_10 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_cst_11 : Ref sig .tc := ⟨.hbm, 68, rfl⟩
abbrev main_v49 : Ref sig .tc := ⟨.hbm, 69, rfl⟩
abbrev main_v50 : Ref sig .tc := ⟨.hbm, 70, rfl⟩
abbrev main_cst_12 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_cst_13 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_cst_14 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_cst_15 : Ref sig .tc := ⟨.hbm, 91, rfl⟩
abbrev main_v68 : Ref sig .tc := ⟨.hbm, 92, rfl⟩
abbrev main_v69 : Ref sig .tc := ⟨.hbm, 93, rfl⟩
abbrev main_cst_16 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_cst_17 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_cst_18 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_cst_19 : Ref sig .tc := ⟨.hbm, 112, rfl⟩
abbrev main_v85 : Ref sig .tc := ⟨.hbm, 113, rfl⟩
abbrev main_v86 : Ref sig .tc := ⟨.hbm, 114, rfl⟩
abbrev main_cst_20 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_cst_21 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩
abbrev main_v98 : Ref sig .tc := ⟨.hbm, 128, rfl⟩
abbrev main_cst_22 : Ref sig .tc := ⟨.hbm, 129, rfl⟩
abbrev main_v99 : Ref sig .tc := ⟨.hbm, 130, rfl⟩
abbrev main_v100 : Ref sig .tc := ⟨.hbm, 131, rfl⟩
abbrev main_v101 : Ref sig .tc := ⟨.hbm, 132, rfl⟩
abbrev main_cst_23 : Ref sig .tc := ⟨.hbm, 133, rfl⟩
abbrev main_v102 : Ref sig .tc := ⟨.hbm, 134, rfl⟩
abbrev main_v103 : Ref sig .tc := ⟨.hbm, 135, rfl⟩
abbrev main_cst_24 : Ref sig .tc := ⟨.hbm, 136, rfl⟩
abbrev main_v104 : Ref sig .tc := ⟨.hbm, 137, rfl⟩
abbrev main_v105 : Ref sig .tc := ⟨.hbm, 138, rfl⟩
abbrev main_v106 : Ref sig .tc := ⟨.hbm, 139, rfl⟩
abbrev main_cst_25 : Ref sig .tc := ⟨.hbm, 140, rfl⟩
abbrev main_v107 : Ref sig .tc := ⟨.hbm, 141, rfl⟩
abbrev main_v108 : Ref sig .tc := ⟨.hbm, 142, rfl⟩
abbrev main_v109 : Ref sig .tc := ⟨.hbm, 143, rfl⟩
abbrev main_v110 : Ref sig .tc := ⟨.hbm, 144, rfl⟩
abbrev main_v111 : Ref sig .tc := ⟨.hbm, 145, rfl⟩
abbrev main_v112 : Ref sig .tc := ⟨.hbm, 146, rfl⟩
abbrev main_v113 : Ref sig .tc := ⟨.hbm, 147, rfl⟩
abbrev main_v114 : Ref sig .tc := ⟨.hbm, 148, rfl⟩
abbrev main_v115 : Ref sig .tc := ⟨.hbm, 149, rfl⟩
abbrev main_v116 : Ref sig .tc := ⟨.hbm, 150, rfl⟩
abbrev main_v117 : Ref sig .tc := ⟨.hbm, 151, rfl⟩
abbrev main_cst_26 : Ref sig .tc := ⟨.hbm, 152, rfl⟩
abbrev main_v118 : Ref sig .tc := ⟨.hbm, 153, rfl⟩
abbrev main_v119 : Ref sig .tc := ⟨.hbm, 154, rfl⟩
abbrev main_v120 : Ref sig .tc := ⟨.hbm, 155, rfl⟩
abbrev main_cst_27 : Ref sig .tc := ⟨.hbm, 156, rfl⟩
abbrev main_v121 : Ref sig .tc := ⟨.hbm, 157, rfl⟩
abbrev main_v122 : Ref sig .tc := ⟨.hbm, 158, rfl⟩
abbrev main_cst_28 : Ref sig .tc := ⟨.hbm, 159, rfl⟩
abbrev main_v123 : Ref sig .tc := ⟨.hbm, 160, rfl⟩
abbrev main_v124 : Ref sig .tc := ⟨.hbm, 161, rfl⟩
abbrev main_v125 : Ref sig .tc := ⟨.hbm, 162, rfl⟩
abbrev main_cst_29 : Ref sig .tc := ⟨.hbm, 163, rfl⟩
abbrev main_v126 : Ref sig .tc := ⟨.hbm, 164, rfl⟩
abbrev main_v127 : Ref sig .tc := ⟨.hbm, 165, rfl⟩
abbrev main_v128 : Ref sig .tc := ⟨.hbm, 166, rfl⟩
abbrev main_v129 : Ref sig .tc := ⟨.hbm, 167, rfl⟩
abbrev main_v130 : Ref sig .tc := ⟨.hbm, 168, rfl⟩
abbrev main_v131 : Ref sig .tc := ⟨.hbm, 169, rfl⟩
abbrev main_v132 : Ref sig .tc := ⟨.hbm, 170, rfl⟩
abbrev main_v133 : Ref sig .tc := ⟨.hbm, 171, rfl⟩
abbrev main_v134 : Ref sig .tc := ⟨.hbm, 172, rfl⟩
abbrev main_cst_30 : Ref sig .tc := ⟨.hbm, 173, rfl⟩
abbrev main_v135 : Ref sig .tc := ⟨.hbm, 174, rfl⟩
abbrev main_v136 : Ref sig .tc := ⟨.hbm, 175, rfl⟩
abbrev main_v137 : Ref sig .tc := ⟨.hbm, 176, rfl⟩
abbrev main_cst_31 : Ref sig .tc := ⟨.hbm, 177, rfl⟩
abbrev main_v138 : Ref sig .tc := ⟨.hbm, 178, rfl⟩
abbrev main_v139 : Ref sig .tc := ⟨.hbm, 179, rfl⟩
abbrev main_cst_32 : Ref sig .tc := ⟨.hbm, 180, rfl⟩
abbrev main_v140 : Ref sig .tc := ⟨.hbm, 181, rfl⟩
abbrev main_v141 : Ref sig .tc := ⟨.hbm, 182, rfl⟩
abbrev main_v142 : Ref sig .tc := ⟨.hbm, 183, rfl⟩
abbrev main_cst_33 : Ref sig .tc := ⟨.hbm, 184, rfl⟩
abbrev main_v143 : Ref sig .tc := ⟨.hbm, 185, rfl⟩
abbrev main_v144 : Ref sig .tc := ⟨.hbm, 186, rfl⟩
abbrev main_v145 : Ref sig .tc := ⟨.hbm, 187, rfl⟩
abbrev main_v146 : Ref sig .tc := ⟨.hbm, 188, rfl⟩
abbrev main_v147 : Ref sig .tc := ⟨.hbm, 189, rfl⟩
abbrev main_v148 : Ref sig .tc := ⟨.hbm, 190, rfl⟩
abbrev main_v149 : Ref sig .tc := ⟨.hbm, 191, rfl⟩
abbrev main_v150 : Ref sig .tc := ⟨.hbm, 192, rfl⟩
abbrev main_v151 : Ref sig .tc := ⟨.hbm, 193, rfl⟩
abbrev main_cst_34 : Ref sig .tc := ⟨.hbm, 194, rfl⟩
abbrev main_v152 : Ref sig .tc := ⟨.hbm, 195, rfl⟩
abbrev main_v153 : Ref sig .tc := ⟨.hbm, 196, rfl⟩
abbrev main_v154 : Ref sig .tc := ⟨.hbm, 197, rfl⟩
abbrev main_cst_35 : Ref sig .tc := ⟨.hbm, 198, rfl⟩
abbrev main_v155 : Ref sig .tc := ⟨.hbm, 199, rfl⟩
abbrev main_v156 : Ref sig .tc := ⟨.hbm, 200, rfl⟩
abbrev main_cst_36 : Ref sig .tc := ⟨.hbm, 201, rfl⟩
abbrev main_v157 : Ref sig .tc := ⟨.hbm, 202, rfl⟩
abbrev main_v158 : Ref sig .tc := ⟨.hbm, 203, rfl⟩
abbrev main_v159 : Ref sig .tc := ⟨.hbm, 204, rfl⟩
abbrev main_cst_37 : Ref sig .tc := ⟨.hbm, 205, rfl⟩
abbrev main_v160 : Ref sig .tc := ⟨.hbm, 206, rfl⟩
abbrev main_v161 : Ref sig .tc := ⟨.hbm, 207, rfl⟩
abbrev main_v162 : Ref sig .tc := ⟨.hbm, 208, rfl⟩

abbrev nD : Nat := 1
abbrev τ : Topo := Topo.v7x

variable {F : FTy → Type} [FloatOps F]

class Facts₀ : Prop where
  transposes_S16384x3x2752_S3x16384x2752_1_0_2 : S16384x3x2752.Transposes [1, 0, 2] S3x16384x2752
  bcast_S_S16384x256 : S_.BroadcastsInDim S16384x256 (![] : Fin 0 → Fin S16384x256.rank)
  bcast_S_S16384x100 : S_.BroadcastsInDim S16384x100 (![] : Fin 0 → Fin S16384x100.rank)
  slices_S3x16384x2752_S1x16384x2752_0_0_0 : S3x16384x2752.Slices ![0, 0, 0] S1x16384x2752
  shapeCasts_S1x16384x2752_S16384x2752 : S1x16384x2752.ShapeCasts S16384x2752
  transposes_S256x2752_S2752x256_1_0 : S256x2752.Transposes [1, 0] S2752x256
  bcast_S256_S1x256_1 : S256.BroadcastsInDim S1x256 (![1] : Fin 1 → Fin S1x256.rank)
  bcast_S1x256_S16384x256_0_1 : S1x256.BroadcastsInDim S16384x256 (![0, 1] : Fin 2 → Fin S16384x256.rank)
  transposes_S256x256_S256x256_1_0 : S256x256.Transposes [1, 0] S256x256
  transposes_S100x256_S256x100_1_0 : S100x256.Transposes [1, 0] S256x100
  bcast_S100_S1x100_1 : S100.BroadcastsInDim S1x100 (![1] : Fin 1 → Fin S1x100.rank)
  bcast_S1x100_S16384x100_0_1 : S1x100.BroadcastsInDim S16384x100 (![0, 1] : Fin 2 → Fin S16384x100.rank)
  slices_S3x16384x2752_S1x16384x2752_1_0_0 : S3x16384x2752.Slices ![1, 0, 0] S1x16384x2752
  slices_S3x16384x2752_S1x16384x2752_2_0_0 : S3x16384x2752.Slices ![2, 0, 0] S1x16384x2752
  dot_S16384x2752_S2752x256_S16384x256_1_0_0_1_n_n_wf : DotDims.WF S16384x2752 S2752x256 S16384x256 [1] [0] [0] [1] [] []
  dot_S16384x256_S256x256_S16384x256_1_0_0_1_n_n_wf : DotDims.WF S16384x256 S256x256 S16384x256 [1] [0] [0] [1] [] []
  dot_S16384x256_S256x100_S16384x100_1_0_0_1_n_n_wf : DotDims.WF S16384x256 S256x100 S16384x100 [1] [0] [0] [1] [] []

variable [Facts₀]

def dot_S16384x2752_S2752x256_S16384x256_1_0_0_1_n_n : DotDims S16384x2752 S2752x256 S16384x256 where
  lhsContracting := [1]
  rhsContracting := [0]
  lhsNonContracting := [0]
  rhsNonContracting := [1]
  lhsBatch := []
  rhsBatch := []
  wf := dot_S16384x2752_S2752x256_S16384x256_1_0_0_1_n_n_wf
def dot_S16384x256_S256x256_S16384x256_1_0_0_1_n_n : DotDims S16384x256 S256x256 S16384x256 where
  lhsContracting := [1]
  rhsContracting := [0]
  lhsNonContracting := [0]
  rhsNonContracting := [1]
  lhsBatch := []
  rhsBatch := []
  wf := dot_S16384x256_S256x256_S16384x256_1_0_0_1_n_n_wf
def dot_S16384x256_S256x100_S16384x100_1_0_0_1_n_n : DotDims S16384x256 S256x100 S16384x100 where
  lhsContracting := [1]
  rhsContracting := [0]
  lhsNonContracting := [0]
  rhsNonContracting := [1]
  lhsBatch := []
  rhsBatch := []
  wf := dot_S16384x256_S256x100_S16384x100_1_0_0_1_n_n_wf

class Facts : Prop extends Facts₀ where

variable [Facts]
-- ==== Proof.Spec.lean ====
/-
  The mathematics both programs compute, for ONE row of the batch: three fully connected layers of
  leaky integrate-and-fire neurons run for three time steps, and the spikes of the last layer at the last step.

  A neuron with membrane potential v receiving the current h charges to u = v + (h − v)/2, fires s = [u − 1 ≥ 0]
  (1 or 0) and is reset to u · (1 − s). A layer's current into neuron j is the inner product of its input row
  with row j of the weights, plus the bias: lin x (W j) (b j). All over the extended reals, the three float
  constants being the values of their words.
-/
import Idealize.ShloMosaic.PureOps.Ideal
import Idealize.ShloMosaic.Lib.ValueIdx

noncomputable section

namespace Cert.Snn

open Idealize.ShloMosaic

/-- The constants 0, 1 and 2 as the extended reals their f32 words denote. -/
abbrev cZero : EReal := Ideal.ofBits .f32 0x00000000#32
abbrev cOne : EReal := Ideal.ofBits .f32 0x3F800000#32
abbrev cTwo : EReal := Ideal.ofBits .f32 0x40000000#32

/-- The current into a neuron: the inner product of the input row with the neuron's weights, plus its bias. -/
def lin {K : ℕ} (x w : Fin K → EReal) (b : EReal) : EReal := (∑ k : Fin K, x k * w k) + b

/-- Charging: the potential moves half way from `v` towards the current `h`. -/
def charge (v h : EReal) : EReal := v + Ideal.div (h - v) cTwo

/-- A one-bit word as the number 0 or 1. -/
def bit (b : BitVec 1) : EReal := ((b.toNat : ℝ) : EReal)

/-- Firing: 1 when the charged potential reaches the threshold 1, else 0. -/
def fire (u : EReal) : EReal := bit (Ideal.cmp .oge (u - cOne) cZero)

/-- The hard reset: a neuron that fired restarts from 0, one that did not keeps its potential. -/
def leak (u : EReal) : EReal := u * (cOne - fire u)

/-- The bit read as a SIGNED 32-bit integer after zero extension is the same number. -/
theorem bit_of_zext (b : BitVec 1) : (((b.setWidth 32).toInt : ℝ) : EReal) = bit b := by
  have key : (b.setWidth 32).toInt = (b.toNat : ℤ) := by
    by_cases h : b = 1#1
    · subst h; decide
    · have h0 := ValueIdx.eq_zero_of_ne_one h; subst h0; decide
  unfold bit
  rw [key, Int.cast_natCast]

/-! ## One layer over the three time steps

  Inputs `ia ib ic` (the layer's input rows at the three steps), weights `W` and biases `b`; neuron `j`'s charged
  potential `u`, spike `s` and reset potential `v` at the steps a, b, c. -/

section Layer
variable {K J : ℕ} (ia ib ic : Fin K → EReal) (W : Fin J → Fin K → EReal) (b : Fin J → EReal)

def ua (j : Fin J) : EReal := charge cZero (lin ia (W j) (b j))
def sa (j : Fin J) : EReal := fire (ua ia W b j)
def va (j : Fin J) : EReal := leak (ua ia W b j)
def ub (j : Fin J) : EReal := charge (va ia W b j) (lin ib (W j) (b j))
def sb (j : Fin J) : EReal := fire (ub ia ib W b j)
def vb (j : Fin J) : EReal := leak (ub ia ib W b j)
def uc (j : Fin J) : EReal := charge (vb ia ib W b j) (lin ic (W j) (b j))
def sc (j : Fin J) : EReal := fire (uc ia ib ic W b j)

end Layer

/-- A neuron's last spike depends on the layer's weights and biases through its own row and bias only. -/
theorem sc_congr {K J J' : ℕ} (ia ib ic : Fin K → EReal) (W : Fin J → Fin K → EReal) (b : Fin J → EReal)
    (W' : Fin J' → Fin K → EReal) (b' : Fin J' → EReal) (j : Fin J) (j' : Fin J') (hW : W j = W' j') (hb : b j = b' j') :
    sc ia ib ic W b j = sc ia ib ic W' b' j' := by
  unfold sc uc vb ub va ua
  rw [hW, hb]

/-- The network on one row: inputs `x0 x1 x2` at the three steps; output neuron `j`'s spike at the last step. -/
def net {D H n : ℕ} (x0 x1 x2 : Fin D → EReal) (W1 : Fin H → Fin D → EReal) (b1 : Fin H → EReal)
    (W2 : Fin H → Fin H → EReal) (b2 : Fin H → EReal) (W3 : Fin n → Fin H → EReal) (b3 : Fin n → EReal) (j : Fin n) : EReal :=
  sc (sa (sa x0 W1 b1) W2 b2) (sb (sa x0 W1 b1) (sb x0 x1 W1 b1) W2 b2)
    (sc (sa x0 W1 b1) (sb x0 x1 W1 b1) (sc x0 x1 x2 W1 b1) W2 b2) W3 b3 j

/-- The output neuron's spike depends on the last layer through that neuron's own weights and bias only: a last
    layer widened by further neurons computes the same spikes for the original ones. -/
theorem net_congr {D H n n' : ℕ} (x0 x1 x2 : Fin D → EReal) (W1 : Fin H → Fin D → EReal) (b1 : Fin H → EReal)
    (W2 : Fin H → Fin H → EReal) (b2 : Fin H → EReal) (W3 : Fin n → Fin H → EReal) (b3 : Fin n → EReal)
    (W3' : Fin n' → Fin H → EReal) (b3' : Fin n' → EReal) (j : Fin n) (j' : Fin n') (hW : W3 j = W3' j') (hb : b3 j = b3' j') :
    net x0 x1 x2 W1 b1 W2 b2 W3 b3 j = net x0 x1 x2 W1 b1 W2 b2 W3' b3' j' :=
  sc_congr _ _ _ W3 b3 W3' b3' j j' hW hb

end Cert.Snn

end
-- ==== Proof.LibTransposedDot.lean ====
/-
  A matrix product M×K by N×K — the right operand contracted on its LAST axis, so that no transpose is formed — into a
  zero accumulator, read at an entry over the extended reals: entry (p, q) is the sum over c of lhs (p, c) · rhs (q, c).
  The contraction index, a one-axis multi-index, is re-indexed to its one coordinate.
-/
import Idealize.ShloMosaic.Lib.ValueIdx
import Idealize.ShloMosaic.PureOps.Ideal.Laws

namespace Cert.LibTransposedDot

open Idealize.ShloMosaic Idealize.ShloMosaic.ValueIdx

/-- The left operand's index at result entry `(p, q)` and contraction coordinate `c` is `(p, c)`. -/
theorem tr_lhsIdx (M K N : ℕ) (p : Fin M) (q : Fin N) (c : Fin K) :
    (DotDims.transposedRhs M K N).lhsIdx (ix2 p q) ((contrEquiv1 (DotDims.transposedRhs M K N) K rfl rfl).symm c) = ix2 p c := by
  funext a
  refine Fin.ext ?_
  match a with
  | ⟨0, _⟩ => rfl
  | ⟨1, _⟩ =>
    show ((DotDims.transposedRhs M K N).lhsIdx (ix2 p q) ((contrEquiv1 (DotDims.transposedRhs M K N) K rfl rfl).symm c) 1).val = c.val
    rw [(DotDims.transposedRhs M K N).lhsIdx_val_of_single (cl := 1) rfl]
    exact contrEquiv1_symm_val (DotDims.transposedRhs M K N) K rfl rfl c

/-- The right operand's index there is `(q, c)`: its rows are the result's columns. -/
theorem tr_rhsIdx (M K N : ℕ) (p : Fin M) (q : Fin N) (c : Fin K) :
    (DotDims.transposedRhs M K N).rhsIdx (ix2 p q) ((contrEquiv1 (DotDims.transposedRhs M K N) K rfl rfl).symm c) = ix2 q c := by
  funext a
  refine Fin.ext ?_
  match a with
  | ⟨0, _⟩ => rfl
  | ⟨1, _⟩ =>
    show ((DotDims.transposedRhs M K N).rhsIdx (ix2 p q) ((contrEquiv1 (DotDims.transposedRhs M K N) K rfl rfl).symm c) 1).val = c.val
    rw [(DotDims.transposedRhs M K N).rhsIdx_val_of_single (cr := 1) rfl]
    exact contrEquiv1_symm_val (DotDims.transposedRhs M K N) K rfl rfl c

/-- Entry `(p, q)` of the product into the zero accumulator is `∑ c, lhs (p, c) · rhs (q, c)`. -/
theorem matmul_transposedRhs_zero_apply {φ₁ φ₂ : FTy} (M K N : ℕ) (prec : Option ContractPrecision)
    (lhs : FVec Ideal ⟨2, ![M, K]⟩ φ₁) (rhs : FVec Ideal ⟨2, ![N, K]⟩ φ₂) (p : Fin M) (q : Fin N) :
    FloatOps.matmul (DotDims.transposedRhs M K N) prec lhs rhs (constant ⟨2, ![M, N]⟩ .f32 0x00000000#32) (ix2 p q)
      = ∑ c : Fin K, lhs (ix2 p c) * rhs (ix2 q c) := by
  rw [Ideal.matmul_constant_zero_apply, ← Equiv.sum_comp (contrEquiv1 (DotDims.transposedRhs M K N) K rfl rfl).symm]
  refine Finset.sum_congr rfl fun c _ => ?_
  rw [tr_lhsIdx, tr_rhsIdx]

end Cert.LibTransposedDot
-- ==== Proof.KernelForm.lean ====
/-
  The kernel body's vector operations, in the spelling the body uses, gathered into the neuron's three moves
  (charge, fire, reset), a layer's current (a product with the weights' rows plus the bias row), a layer over the
  three time steps and the three-layer network — each an ARRAY over a tile of rows; and each read at an entry
  (p, q) as the row-wise mathematics of Spec.lean for row p.
-/
import proofs.«179507_j86474871538275_2_alg».proof.Proof.Spec
import proofs.«179507_j86474871538275_2_alg».proof.Proof.LibTransposedDot
import Idealize.ShloMosaic.Lib.ValueLayout
import Idealize.ShloMosaic.Lib.Pipeline.Value
import Idealize.ShloMosaic.PureOps.Ideal.Laws

noncomputable section

namespace Cert.Snn.KernelForm

open Idealize.ShloMosaic Idealize.ShloMosaic.ValueIdx Cert.Snn

/-! ## The neuron's moves, entry by entry -/

section Pointwise
variable {S : Shape}

/-- The resting potential: zero everywhere. -/
def kZero (S : Shape) : FVec Ideal S .f32 := broadcast S (Scalar.ofBits (F := Ideal) .f32 0x00000000#32)

/-- `v + (h − v) / 2`. -/
def kCharge (v h : FVec Ideal S .f32) : FVec Ideal S .f32 :=
  addf v (divf (subf h v) (broadcast S (Scalar.ofBits (F := Ideal) .f32 0x40000000#32)))

/-- `[u − 1 ≥ 0]` as a float: the comparison's bit, widened to 32 bits, read as a signed integer. -/
def kFire (u : FVec Ideal S .f32) : FVec Ideal S .f32 :=
  sitofp .f32 (extui 32 (cmpf .oge (subf u (broadcast S (Scalar.ofBits (F := Ideal) .f32 0x3F800000#32)))
    (broadcast S (Scalar.ofBits (F := Ideal) .f32 0x00000000#32))) (by decide))

/-- `u · (1 − fire u)`. -/
def kLeak (u : FVec Ideal S .f32) : FVec Ideal S .f32 :=
  mulf u (subf (broadcast S (Scalar.ofBits (F := Ideal) .f32 0x3F800000#32)) (kFire u))

theorem kZero_apply (i : S.Idx) : kZero S i = cZero := rfl
theorem kCharge_apply (v h : FVec Ideal S .f32) (i : S.Idx) : kCharge v h i = charge (v i) (h i) := rfl
theorem kFire_apply (u : FVec Ideal S .f32) (i : S.Idx) : kFire u i = fire (u i) :=
  bit_of_zext (Ideal.cmp .oge (u i - cOne) cZero)
theorem kLeak_apply (u : FVec Ideal S .f32) (i : S.Idx) : kLeak u i = leak (u i) := by
  show u i * (cOne - kFire u i) = _
  rw [kFire_apply]; rfl

end Pointwise

/-! ## A layer -/

section Layer
variable {M K J : ℕ} (D : DotDims ⟨2, ![M, K]⟩ ⟨2, ![J, K]⟩ ⟨2, ![M, J]⟩)
  (hb : (⟨2, ![1, J]⟩ : Shape).Broadcasts ⟨2, ![M, J]⟩)

/-- The currents into a layer's neurons for a tile of input rows: the rows times the weights' rows, plus the bias row. -/
def kCur (s : FVec Ideal ⟨2, ![M, K]⟩ .f32) (W : FVec Ideal ⟨2, ![J, K]⟩ .f32) (b : FVec Ideal ⟨2, ![1, J]⟩ .f32) :
    FVec Ideal ⟨2, ![M, J]⟩ .f32 :=
  addf (matmul D (some .fp32) s W (constant ⟨2, ![M, J]⟩ .f32 0x00000000#32)) (broadcastTo ⟨2, ![M, J]⟩ b hb)

variable (ia ib ic : FVec Ideal ⟨2, ![M, K]⟩ .f32) (W : FVec Ideal ⟨2, ![J, K]⟩ .f32) (b : FVec Ideal ⟨2, ![1, J]⟩ .f32)

def kUa : FVec Ideal ⟨2, ![M, J]⟩ .f32 := kCharge (kZero _) (kCur D hb ia W b)
def kSa : FVec Ideal ⟨2, ![M, J]⟩ .f32 := kFire (kUa D hb ia W b)
def kVa : FVec Ideal ⟨2, ![M, J]⟩ .f32 := kLeak (kUa D hb ia W b)
def kUb : FVec Ideal ⟨2, ![M, J]⟩ .f32 := kCharge (kVa D hb ia W b) (kCur D hb ib W b)
def kSb : FVec Ideal ⟨2, ![M, J]⟩ .f32 := kFire (kUb D hb ia ib W b)
def kVb : FVec Ideal ⟨2, ![M, J]⟩ .f32 := kLeak (kUb D hb ia ib W b)
def kUc : FVec Ideal ⟨2, ![M, J]⟩ .f32 := kCharge (kVb D hb ia ib W b) (kCur D hb ic W b)
def kSc : FVec Ideal ⟨2, ![M, J]⟩ .f32 := kFire (kUc D hb ia ib ic W b)

variable (hD : D = DotDims.transposedRhs M K J)
include hD

/-- The current into neuron `q` for row `p` of the tile. -/
theorem kCur_apply (p : Fin M) (q : Fin J) :
    kCur D hb ia W b (ix2 p q) = lin (fun k => ia (ix2 p k)) (fun k => W (ix2 q k)) (b (ix2 0 q)) := by
  subst hD
  show FloatOps.matmul (DotDims.transposedRhs M K J) (some .fp32) ia W (constant ⟨2, ![M, J]⟩ .f32 0x00000000#32) (ix2 p q)
    + broadcastTo ⟨2, ![M, J]⟩ b hb (ix2 p q) = _
  rw [Cert.LibTransposedDot.matmul_transposedRhs_zero_apply, broadcastTo_1b_ab_apply]
  rfl

theorem kUa_apply (p : Fin M) (q : Fin J) :
    kUa D hb ia W b (ix2 p q) = ua (fun k => ia (ix2 p k)) (fun j k => W (ix2 j k)) (fun j => b (ix2 0 j)) q := by
  show charge cZero (kCur D hb ia W b (ix2 p q)) = _
  rw [kCur_apply D hb ia W b hD]; rfl

theorem kSa_apply (p : Fin M) (q : Fin J) :
    kSa D hb ia W b (ix2 p q) = sa (fun k => ia (ix2 p k)) (fun j k => W (ix2 j k)) (fun j => b (ix2 0 j)) q :=
  (kFire_apply _ _).trans (congrArg fire (kUa_apply D hb ia W b hD p q))

theorem kVa_apply (p : Fin M) (q : Fin J) :
    kVa D hb ia W b (ix2 p q) = va (fun k => ia (ix2 p k)) (fun j k => W (ix2 j k)) (fun j => b (ix2 0 j)) q :=
  (kLeak_apply _ _).trans (congrArg leak (kUa_apply D hb ia W b hD p q))

theorem kUb_apply (p : Fin M) (q : Fin J) :
    kUb D hb ia ib W b (ix2 p q)
      = ub (fun k => ia (ix2 p k)) (fun k => ib (ix2 p k)) (fun j k => W (ix2 j k)) (fun j => b (ix2 0 j)) q := by
  show charge (kVa D hb ia W b (ix2 p q)) (kCur D hb ib W b (ix2 p q)) = _
  rw [kVa_apply D hb ia W b hD, kCur_apply D hb ib W b hD]; rfl

theorem kSb_apply (p : Fin M) (q : Fin J) :
    kSb D hb ia ib W b (ix2 p q)
      = sb (fun k => ia (ix2 p k)) (fun k => ib (ix2 p k)) (fun j k => W (ix2 j k)) (fun j => b (ix2 0 j)) q :=
  (kFire_apply _ _).trans (congrArg fire (kUb_apply D hb ia ib W b hD p q))

theorem kVb_apply (p : Fin M) (q : Fin J) :
    kVb D hb ia ib W b (ix2 p q)
      = vb (fun k => ia (ix2 p k)) (fun k => ib (ix2 p k)) (fun j k => W (ix2 j k)) (fun j => b (ix2 0 j)) q :=
  (kLeak_apply _ _).trans (congrArg leak (kUb_apply D hb ia ib W b hD p q))

theorem kUc_apply (p : Fin M) (q : Fin J) :
    kUc D hb ia ib ic W b (ix2 p q)
      = uc (fun k => ia (ix2 p k)) (fun k => ib (ix2 p k)) (fun k => ic (ix2 p k)) (fun j k => W (ix2 j k)) (fun j => b (ix2 0 j)) q := by
  show charge (kVb D hb ia ib W b (ix2 p q)) (kCur D hb ic W b (ix2 p q)) = _
  rw [kVb_apply D hb ia ib W b hD, kCur_apply D hb ic W b hD]; rfl

theorem kSc_apply (p : Fin M) (q : Fin J) :
    kSc D hb ia ib ic W b (ix2 p q)
      = sc (fun k => ia (ix2 p k)) (fun k => ib (ix2 p k)) (fun k => ic (ix2 p k)) (fun j k => W (ix2 j k)) (fun j => b (ix2 0 j)) q :=
  (kFire_apply _ _).trans (congrArg fire (kUc_apply D hb ia ib ic W b hD p q))

/-- A layer's spikes along row `p` of the tile, as the row-wise spikes. -/
theorem kSa_row (p : Fin M) :
    (fun q => kSa D hb ia W b (ix2 p q)) = sa (fun k => ia (ix2 p k)) (fun j k => W (ix2 j k)) (fun j => b (ix2 0 j)) :=
  funext fun q => kSa_apply D hb ia W b hD p q
theorem kSb_row (p : Fin M) :
    (fun q => kSb D hb ia ib W b (ix2 p q))
      = sb (fun k => ia (ix2 p k)) (fun k => ib (ix2 p k)) (fun j k => W (ix2 j k)) (fun j => b (ix2 0 j)) :=
  funext fun q => kSb_apply D hb ia ib W b hD p q
theorem kSc_row (p : Fin M) :
    (fun q => kSc D hb ia ib ic W b (ix2 p q))
      = sc (fun k => ia (ix2 p k)) (fun k => ib (ix2 p k)) (fun k => ic (ix2 p k)) (fun j k => W (ix2 j k)) (fun j => b (ix2 0 j)) :=
  funext fun q => kSc_apply D hb ia ib ic W b hD p q

end Layer

/-! ## The network on a tile of rows -/

section Net
variable {M D H n : ℕ}
  (D1 : DotDims ⟨2, ![M, D]⟩ ⟨2, ![H, D]⟩ ⟨2, ![M, H]⟩) (D2 : DotDims ⟨2, ![M, H]⟩ ⟨2, ![H, H]⟩ ⟨2, ![M, H]⟩)
  (D3 : DotDims ⟨2, ![M, H]⟩ ⟨2, ![n, H]⟩ ⟨2, ![M, n]⟩)
  (hbH : (⟨2, ![1, H]⟩ : Shape).Broadcasts ⟨2, ![M, H]⟩) (hbn : (⟨2, ![1, n]⟩ : Shape).Broadcasts ⟨2, ![M, n]⟩)
  (xa xb xc : FVec Ideal ⟨2, ![M, D]⟩ .f32) (W1 : FVec Ideal ⟨2, ![H, D]⟩ .f32) (b1 : FVec Ideal ⟨2, ![1, H]⟩ .f32)
  (W2 : FVec Ideal ⟨2, ![H, H]⟩ .f32) (b2 : FVec Ideal ⟨2, ![1, H]⟩ .f32)
  (W3 : FVec Ideal ⟨2, ![n, H]⟩ .f32) (b3 : FVec Ideal ⟨2, ![1, n]⟩ .f32)

/-- The last layer's spikes at the last step, for the tile. -/
def kNet : FVec Ideal ⟨2, ![M, n]⟩ .f32 :=
  kSc D3 hbn (kSa D2 hbH (kSa D1 hbH xa W1 b1) W2 b2)
    (kSb D2 hbH (kSa D1 hbH xa W1 b1) (kSb D1 hbH xa xb W1 b1) W2 b2)
    (kSc D2 hbH (kSa D1 hbH xa W1 b1) (kSb D1 hbH xa xb W1 b1) (kSc D1 hbH xa xb xc W1 b1) W2 b2) W3 b3

theorem kNet_apply (h1 : D1 = DotDims.transposedRhs M D H) (h2 : D2 = DotDims.transposedRhs M H H)
    (h3 : D3 = DotDims.transposedRhs M H n) (p : Fin M) (q : Fin n) :
    kNet D1 D2 D3 hbH hbn xa xb xc W1 b1 W2 b2 W3 b3 (ix2 p q)
      = net (fun k => xa (ix2 p k)) (fun k => xb (ix2 p k)) (fun k => xc (ix2 p k))
          (fun j k => W1 (ix2 j k)) (fun j => b1 (ix2 0 j)) (fun j k => W2 (ix2 j k)) (fun j => b2 (ix2 0 j))
          (fun j k => W3 (ix2 j k)) (fun j => b3 (ix2 0 j)) q := by
  unfold kNet net
  rw [kSc_apply D3 hbn _ _ _ W3 b3 h3, kSa_row D2 hbH _ W2 b2 h2, kSb_row D2 hbH _ _ W2 b2 h2, kSc_row D2 hbH _ _ _ W2 b2 h2,
    kSa_row D1 hbH xa W1 b1 h1, kSb_row D1 hbH xa xb W1 b1 h1, kSc_row D1 hbH xa xb xc W1 b1 h1]

end Net

end Cert.Snn.KernelForm

end
-- ==== Proof.KernelPayload.lean ====
/-
  What the kernel body stores, as a function of the nine vectors it loads (the three weight matrices, the three bias
  rows, and the three time slabs of the tile's input rows): it is the three-layer network of KernelForm.lean on the
  tile — the body's 150-odd vector operations regrouped into the neuron's moves, nothing more — and hence, at entry
  (p, q), the row-wise network of Spec.lean for row p of the tile and output neuron q.
-/
import proofs.«179507_j86474871538275_2_alg».proof.Proof.Gen.KernelIdeal.Skeleton
import proofs.«179507_j86474871538275_2_alg».proof.Proof.KernelForm

noncomputable section

namespace Cert.KernelIdeal.Payload

open Cert.KernelIdeal Cert.KernelIdeal.Gen
open Idealize.ShloMosaic Idealize.ShloMosaic.ValueIdx Cert.Snn Cert.Snn.KernelForm

/-- The stored value, from the loaded vectors: `v3 v4 v5` the weights of layers 1, 2, 3 (the last widened to 128
    neurons), `v7 v9 v11` their bias rows, `v13 v63 v113` the tile's inputs at the three time steps. -/
def body (v3 : Vec Ideal S256x2752 .f32) (v4 : Vec Ideal S256x256 .f32) (v5 : Vec Ideal S128x256 .f32)
    (v7 v9 : Vec Ideal S1x256 .f32) (v11 : Vec Ideal S1x128 .f32) (v13 v63 v113 : Vec Ideal S256x2752 .f32) :
    FVec Ideal S256x128 .f32 :=
  k0_pay1 v4 (k0_pay4 v5) (k0_pay6 v9) (k0_pay7 v11)
    (k0_pay21 v4 (k0_pay6 v9)
      (k0_pay14 (k0_pay2 (F := Ideal)) (k0_pay11 v3 v4 v7 v9 v13) (Scalar.ofBits .f32 0x40000000#32))
      (k0_pay17 v3 (k0_pay5 v7) (k0_pay10 v3 v7 v13) v63))
    (k0_pay22 v4 (k0_pay4 v5) (k0_pay6 v9) (k0_pay7 v11)
      (k0_pay14 (k0_pay2 (F := Ideal)) (k0_pay11 v3 v4 v7 v9 v13) (Scalar.ofBits .f32 0x40000000#32))
      (k0_pay15 (k0_pay2 (F := Ideal)) (k0_pay3 (F := Ideal)) (k0_pay4 v5) (k0_pay7 v11) (k0_pay11 v3 v4 v7 v9 v13)
        (Scalar.ofBits .f32 0x40000000#32))
      (k0_pay17 v3 (k0_pay5 v7) (k0_pay10 v3 v7 v13) v63))
    (k0_pay23 v3 (k0_pay5 v7) (k0_pay16 v3 (k0_pay5 v7) (k0_pay10 v3 v7 v13) v63)
      (k0_pay18 v3 (k0_pay5 v7) (k0_pay10 v3 v7 v13) v63) v113)
    (Scalar.ofBits .f32 0x00000000#32)

/-- The body's operations ARE the network's, regrouped (each loaded vector still under the identity shape cast the
    body applies to it). -/
theorem body_eq_net (v3 : Vec Ideal S256x2752 .f32) (v4 : Vec Ideal S256x256 .f32) (v5 : Vec Ideal S128x256 .f32)
    (v7 v9 : Vec Ideal S1x256 .f32) (v11 : Vec Ideal S1x128 .f32) (v13 v63 v113 : Vec Ideal S256x2752 .f32) :
    body v3 v4 v5 v7 v9 v11 v13 v63 v113
      = kNet dot_S256x2752_S256x2752_S256x256_1_1_0_0_n_n dot_S256x256_S256x256_S256x256_1_1_0_0_n_n
          dot_S256x256_S128x256_S256x128_1_1_0_0_n_n Facts₀.broadcasts_S1x256_S256x256 Facts₀.broadcasts_S1x128_S256x128
          (shapeCast S256x2752 v13 Facts₀.shapeCasts_S256x2752_S256x2752) (shapeCast S256x2752 v63 Facts₀.shapeCasts_S256x2752_S256x2752)
          (shapeCast S256x2752 v113 Facts₀.shapeCasts_S256x2752_S256x2752)
          v3 (k0_pay5 v7) v4 (k0_pay6 v9) (k0_pay4 v5) (k0_pay7 v11) := rfl

/-- Entry `(p, q)` of the stored tile: the network on row `p` of the tile's inputs, output neuron `q`. -/
theorem body_apply (v3 : Vec Ideal S256x2752 .f32) (v4 : Vec Ideal S256x256 .f32) (v5 : Vec Ideal S128x256 .f32)
    (v7 v9 : Vec Ideal S1x256 .f32) (v11 : Vec Ideal S1x128 .f32) (v13 v63 v113 : Vec Ideal S256x2752 .f32)
    (p : Fin 256) (q : Fin 128) :
    body v3 v4 v5 v7 v9 v11 v13 v63 v113 (ix2 p q)
      = net (fun k => v13 (ix2 p k)) (fun k => v63 (ix2 p k)) (fun k => v113 (ix2 p k))
          (fun j k => v3 (ix2 j k)) (fun j => v7 (ix2 0 j)) (fun j k => v4 (ix2 j k)) (fun j => v9 (ix2 0 j))
          (fun j k => v5 (ix2 j k)) (fun j => v11 (ix2 0 j)) q := by
  rw [body_eq_net]
  have e13 : shapeCast S256x2752 v13 Facts₀.shapeCasts_S256x2752_S256x2752 = v13 := shapeCast_self _ _
  have e63 : shapeCast S256x2752 v63 Facts₀.shapeCasts_S256x2752_S256x2752 = v63 := shapeCast_self _ _
  have e113 : shapeCast S256x2752 v113 Facts₀.shapeCasts_S256x2752_S256x2752 = v113 := shapeCast_self _ _
  have e5 : k0_pay5 v7 = v7 := shapeCast_self _ _
  have e6 : k0_pay6 v9 = v9 := shapeCast_self _ _
  have e4 : k0_pay4 v5 = v5 := shapeCast_self _ _
  have e7 : k0_pay7 v11 = v11 := shapeCast_self _ _
  rw [e13, e63, e113, e5, e6, e4, e7]
  exact kNet_apply _ _ _ _ _ v13 v63 v113 v3 v7 v4 v9 v5 v11 rfl rfl rfl p q

end Cert.KernelIdeal.Payload

end
-- ==== Proof.Whole.lean ====
/-
  The function of the seven argument arrays that both programs compute: entry (r, j) of the result is the network of
  Spec.lean run on row r of the events array (its three time slices) with the three layers' weights and biases,
  output neuron j.
-/
import proofs.«179507_j86474871538275_2_alg».proof.Proof.Spec

noncomputable section

namespace Cert.Snn

open Idealize.ShloMosaic Idealize.ShloMosaic.ValueIdx

/-- The network's output depends on its nine arguments entry by entry, and on the last layer through the output
    neuron's own weights and bias only (so the last layer may differ in width on the two sides). -/
theorem net_ext {D H n n' : ℕ} {x0 x1 x2 x0' x1' x2' : Fin D → EReal} {W1 W1' : Fin H → Fin D → EReal} {b1 b1' : Fin H → EReal}
    {W2 W2' : Fin H → Fin H → EReal} {b2 b2' : Fin H → EReal} {W3 : Fin n → Fin H → EReal} {b3 : Fin n → EReal}
    {W3' : Fin n' → Fin H → EReal} {b3' : Fin n' → EReal} (j : Fin n) (j' : Fin n')
    (h0 : ∀ k, x0 k = x0' k) (h1 : ∀ k, x1 k = x1' k) (h2 : ∀ k, x2 k = x2' k)
    (hW1 : ∀ i k, W1 i k = W1' i k) (hb1 : ∀ i, b1 i = b1' i) (hW2 : ∀ i k, W2 i k = W2' i k) (hb2 : ∀ i, b2 i = b2' i)
    (hW3 : ∀ k, W3 j k = W3' j' k) (hb3 : b3 j = b3' j') :
    net x0 x1 x2 W1 b1 W2 b2 W3 b3 j = net x0' x1' x2' W1' b1' W2' b2' W3' b3' j' := by
  obtain rfl : x0 = x0' := funext h0
  obtain rfl : x1 = x1' := funext h1
  obtain rfl : x2 = x2' := funext h2
  obtain rfl : W1 = W1' := funext fun i => funext (hW1 i)
  obtain rfl : b1 = b1' := funext hb1
  obtain rfl : W2 = W2' := funext fun i => funext (hW2 i)
  obtain rfl : b2 = b2' := funext hb2
  exact net_congr _ _ _ _ _ _ _ W3 b3 W3' b3' j j' (funext hW3) hb3

section
variable (A0 : (⟨3, ![16384, 3, 2752]⟩ : Shape).Idx → EReal) (A1 : (⟨2, ![256, 2752]⟩ : Shape).Idx → EReal)
  (A2 : (⟨1, ![256]⟩ : Shape).Idx → EReal) (A3 : (⟨2, ![256, 256]⟩ : Shape).Idx → EReal) (A4 : (⟨1, ![256]⟩ : Shape).Idx → EReal)
  (A5 : (⟨2, ![100, 256]⟩ : Shape).Idx → EReal) (A6 : (⟨1, ![100]⟩ : Shape).Idx → EReal)

/-- Output neuron `j`'s last spike for batch row `r`. -/
def outAt (r : Fin 16384) (j : Fin 100) : EReal :=
  net (fun k => A0 (ix3 r (0 : Fin 3) k)) (fun k => A0 (ix3 r (1 : Fin 3) k)) (fun k => A0 (ix3 r (2 : Fin 3) k))
    (fun j k => A1 (ix2 j k)) (fun j => A2 (ix1 j)) (fun j k => A3 (ix2 j k)) (fun j => A4 (ix1 j))
    (fun j k => A5 (ix2 j k)) (fun j => A6 (ix1 j)) j

/-- The result array. -/
def G : (⟨2, ![16384, 100]⟩ : Shape).Idx → EReal := fun i => outAt A0 A1 A2 A3 A4 A5 A6 (i 0) (i 1)

theorem G_apply (r : Fin 16384) (j : Fin 100) : G A0 A1 A2 A3 A4 A5 A6 (ix2 r j) = outAt A0 A1 A2 A3 A4 A5 A6 r j := rfl

end

end Cert.Snn

end
-- ==== Proof.LibSlice2.lean ====
/-
  A unit-stride slice of a rank-2 array read at a pair of coordinates: entry (p, q) of the slice that starts at
  (o₀, o₁) is entry (o₀ + p, o₁ + q) of the array.
-/
import Idealize.ShloMosaic.Lib.Pipeline.Value
import Idealize.ShloMosaic.Lib.ValueIdx

namespace Cert.LibSlice2

open Idealize.ShloMosaic Idealize.ShloMosaic.ValueIdx

/-- Entry `(p, q)` of the slice at offsets `(o₀, o₁)` is entry `(o₀ + p, o₁ + q)` of the array. -/
theorem slice2_apply {α : Type} {m n m' n' : ℕ} (o₀ o₁ : ℕ) (x : (⟨2, ![m, n]⟩ : Shape).Idx → α)
    (h : (⟨2, ![m, n]⟩ : Shape).Slices ![o₀, o₁] ⟨2, ![m', n']⟩) (p : Fin m') (q : Fin n')
    (hp : o₀ + p.val < m) (hq : o₁ + q.val < n) :
    extractStridedSlice ⟨2, ![m', n']⟩ ![o₀, o₁] x h (ix2 p q) = x (ix2 ⟨o₀ + p.val, hp⟩ ⟨o₁ + q.val, hq⟩) :=
  extractStridedSlice_apply _ x h _ _ fun a => by
    match a with
    | ⟨0, _⟩ => rfl
    | ⟨1, _⟩ => rfl

end Cert.LibSlice2
-- ==== Proof.KernelValue.lean ====
/-
  The kernel's result, read off its generated frame run. A grid point t works on rows 256·t … 256·t + 255 of the
  batch: the tile it writes back is the network of KernelPayload.lean on those rows of the flattened events array
  (three slabs of 2752 columns, one per time step), with the weights and the bias rows as the region finds them;
  the 64 tiles cover the [16384, 128] output, the last layer being 128 neurons wide (the 100 real ones and 28 more).
  The host then keeps the first 100 columns, where the widened last layer's weights and biases are the original
  ones: the result is the function `G` of the argument arrays.
-/
import proofs.«179507_j86474871538275_2_alg».proof.Proof.Gen.KernelIdeal.Frame
import proofs.«179507_j86474871538275_2_alg».proof.Proof.KernelPayload
import proofs.«179507_j86474871538275_2_alg».proof.Proof.Whole
import proofs.«179507_j86474871538275_2_alg».proof.Proof.LibSlice2
import Idealize.ShloMosaic.Lib.KernelVsHost
import Idealize.ShloMosaic.Lib.StableHlo.Run
import Idealize.ShloMosaic.Lib.Pipeline.Value
import Idealize.ShloMosaic.Lib.ValueLayout

noncomputable section

namespace Cert.KernelIdeal.KValue

open Cert.KernelIdeal Cert.KernelIdeal.Gen Idealize.ShloMosaic Idealize.ShloMosaic.TcCoe Idealize.SL.Sem
open Idealize.ShloMosaic.StableHlo Idealize.ShloMosaic.ValueIdx Cert.Snn
open Idealize.ShloMosaic.Pipeline (Dat)

/-! ## The body's stored tile at an entry, over any staged blocks -/

theorem hz : (![0, 0] : Fin 2 → Nat) = fun _ => 0 := funext fun a => by fin_cases a <;> rfl

/-- The stored tile is the payload of the blocks as loaded: the weights and biases whole, the events block in its
    three slabs of 2752 columns. -/
theorem out_eq_body (x0 : Vec Ideal S256x8256 .f32) (x1 : Vec Ideal S256x2752 .f32) (x2 : Vec Ideal S1x256 .f32)
    (x3 : Vec Ideal S256x256 .f32) (x4 : Vec Ideal S1x256 .f32) (x5 : Vec Ideal S128x256 .f32) (x6 : Vec Ideal S1x128 .f32) :
    out0_7 x0 x1 x2 x3 x4 x5 x6
      = Payload.body x1 x3 x5 x2 x4 x6 (View.ld x0 r0_5) (View.ld x0 r0_6) (View.ld x0 r0_7) := by
  unfold out0_7
  rw [View.canon_unit_zero hz]
  simp only [View.ld_unit_zero (S := S256x2752) hz, View.ld_unit_zero (S := S256x256) hz,
    View.ld_unit_zero (S := S128x256) hz, View.ld_unit_zero (S := S1x256) hz, View.ld_unit_zero (S := S1x128) hz]
  rfl

/-- Column `k` of the slab that starts at column `o` is column `o + k` of the block. -/
theorem slab_apply (x0 : Vec Ideal S256x8256 .f32) (o : ℕ)
    (inb : ∀ a, (![0, o] : Fin 2 → Nat) a + S256x2752.size a ≤ S256x8256.size a) (p : Fin 256) (k : Fin 2752)
    (h : o + k.val < 8256) :
    View.ld x0 (Rect.unit (s := S256x8256) ![0, o] S256x2752.size inb) (ix2 p k) = x0 (ix2 p ⟨o + k.val, h⟩) := by
  show x0 ((Rect.unit (s := S256x8256) ![0, o] S256x2752.size inb).emb (ix2 p k)) = _
  refine congrArg x0 (funext fun a => Fin.ext ?_)
  match a with
  | ⟨0, _⟩ => show 0 + 1 * p.val = p.val; omega
  | ⟨1, _⟩ => show o + 1 * k.val = o + k.val; omega

/-- Entry `(p, q)` of the stored tile: the network on row `p` of the staged blocks. -/
theorem out_apply (x0 : Vec Ideal S256x8256 .f32) (x1 : Vec Ideal S256x2752 .f32) (x2 : Vec Ideal S1x256 .f32)
    (x3 : Vec Ideal S256x256 .f32) (x4 : Vec Ideal S1x256 .f32) (x5 : Vec Ideal S128x256 .f32) (x6 : Vec Ideal S1x128 .f32)
    (p : Fin 256) (q : Fin 128) :
    out0_7 x0 x1 x2 x3 x4 x5 x6 (ix2 p q)
      = net (fun k : Fin 2752 => x0 (ix2 p ⟨0 + k.val, by have := k.isLt; omega⟩))
          (fun k : Fin 2752 => x0 (ix2 p ⟨2752 + k.val, by have := k.isLt; omega⟩))
          (fun k : Fin 2752 => x0 (ix2 p ⟨5504 + k.val, by have := k.isLt; omega⟩))
          (fun j k => x1 (ix2 j k)) (fun j => x2 (ix2 0 j)) (fun j k => x3 (ix2 j k)) (fun j => x4 (ix2 0 j))
          (fun j k => x5 (ix2 j k)) (fun j => x6 (ix2 0 j)) q := by
  rw [out_eq_body, Payload.body_apply]
  exact net_ext q q (fun k => slab_apply x0 0 _ p k _) (fun k => slab_apply x0 2752 _ p k _)
    (fun k => slab_apply x0 5504 _ p k _) (fun _ _ => rfl) (fun _ => rfl) (fun _ _ => rfl) (fun _ => rfl)
    (fun _ => rfl) rfl

/-! ## The arrays as the region finds them -/

variable (m : (ℓ : Loc nD τ sig) → Buf (Elt Ideal) ℓ) (ρ : Dev nD → PrngReg)

/-- The padding value: the integer zero converted. -/
abbrev padZero : S_.Idx → EReal := sitofp (F := Ideal) .f32 (constantI S_ 32 0#32)

theorem V_v0 (c : Dev nD) : (V m c main_v0 : S16384x8256.Idx → EReal)
    = shapeCast S16384x8256 (m ((c : Thread nD τ).loc main_arg0)) Facts₀.shapeCasts_S16384x3x2752_S16384x8256 := by
  dsimp only [Gen.V, Gen.V0]
  simp only [Gen.hostOps0, Gen.hostOps0_1, Gen.hostOps0_2, Gen.hostOps0_3, Gen.hostOps0_4, List.flatten_cons, List.flatten_nil,
    List.append_nil, List.cons_append, List.nil_append]
  after_results
  rfl

theorem V_v3 (c : Dev nD) : (V m c main_v3 : S1x256.Idx → EReal)
    = shapeCast S1x256 (m ((c : Thread nD τ).loc main_arg2)) Facts₀.shapeCasts_S256_S1x256 := by
  dsimp only [Gen.V, Gen.V0]
  simp only [Gen.hostOps0, Gen.hostOps0_1, Gen.hostOps0_2, Gen.hostOps0_3, Gen.hostOps0_4, List.flatten_cons, List.flatten_nil,
    List.append_nil, List.cons_append, List.nil_append]
  after_results
  rfl

theorem V_v4 (c : Dev nD) : (V m c main_v4 : S1x256.Idx → EReal)
    = shapeCast S1x256 (m ((c : Thread nD τ).loc main_arg4)) Facts₀.shapeCasts_S256_S1x256 := by
  dsimp only [Gen.V, Gen.V0]
  simp only [Gen.hostOps0, Gen.hostOps0_1, Gen.hostOps0_2, Gen.hostOps0_3, Gen.hostOps0_4, List.flatten_cons, List.flatten_nil,
    List.append_nil, List.cons_append, List.nil_append]
  after_results
  rfl

theorem V_v1 (c : Dev nD) : (V m c main_v1 : S128x256.Idx → EReal)
    = pad S128x256 ![0, 0] ![28, 0] ![0, 0] (m ((c : Thread nD τ).loc main_arg5)) padZero
        Facts₀.pads_S100x256_S128x256_0280_000 Facts₀.h_S_ := by
  dsimp only [Gen.V, Gen.V0]
  simp only [Gen.hostOps0, Gen.hostOps0_1, Gen.hostOps0_2, Gen.hostOps0_3, Gen.hostOps0_4, List.flatten_cons, List.flatten_nil,
    List.append_nil, List.cons_append, List.nil_append]
  after_results
  rfl

theorem V_v5 (c : Dev nD) : (V m c main_v5 : S1x128.Idx → EReal)
    = shapeCast S1x128 (pad S128 ![0] ![28] ![0] (m ((c : Thread nD τ).loc main_arg6)) padZero
        Facts₀.pads_S100_S128_0280 Facts₀.h_S_) Facts₀.shapeCasts_S128_S1x128 := by
  dsimp only [Gen.V, Gen.V0]
  simp only [Gen.hostOps0, Gen.hostOps0_1, Gen.hostOps0_2, Gen.hostOps0_3, Gen.hostOps0_4, List.flatten_cons, List.flatten_nil,
    List.append_nil, List.cons_append, List.nil_append]
  after_results
  rfl

/-! ## The index maps, decided over the grid: the events and the output move one block of 256 rows per point, the
    weights and biases stay -/

theorem idx : ∀ t : Fin cfg0.N, win0_0.index t (0 : Fin 2) = t.val ∧ win0_0.index t (1 : Fin 2) = 0
    ∧ win0_7.index t (0 : Fin 2) = t.val ∧ win0_7.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0 :=
  (by decide +kernel : ∀ t : Fin grid0.N, _)

theorem t_lt (t : Fin cfg0.N) : t.val < 64 := by
  have h := t.isLt
  have hN : cfg0.N = 64 := N_0
  omega

/-! ## The staged blocks, read off the arrays -/

/-- Row `p` of the events block at point `t` is row `256·t + p` of the flattened events array. -/
theorem iblk0_apply (c : Dev nD) (t : Fin cfg0.N) (p : Fin 256) (k : Fin 8256) :
    iblk m c 0 t (ix2 p k) = V m c main_v0 (ix2 (⟨t.val * 256 + p.val, by have := t_lt t; omega⟩ : Fin 16384) k) := by
  show V m c main_v0 (((cfg0.win 0).blk t).view.emb (ix2 p k)) = _
  refine congrArg (V m c main_v0) (funext fun a => Fin.ext ?_)
  obtain ⟨e0, e1, -⟩ := idx t
  match a with
  | ⟨0, _⟩ => show win0_0.index t (0 : Fin 2) * 256 + 1 * p.val = t.val * 256 + p.val; rw [e0]; omega
  | ⟨1, _⟩ => show win0_0.index t (1 : Fin 2) * 8256 + 1 * k.val = k.val; rw [e1]; omega

/-- The weights' and biases' blocks are their whole arrays, at every point. -/
theorem iblk1_apply (c : Dev nD) (t : Fin cfg0.N) (y : S256x2752.Idx) : iblk m c 1 t y = V m c main_arg1 y := by
  show V m c main_arg1 (((cfg0.win 1).blk t).view.emb y) = _
  refine congrArg (V m c main_arg1) (funext fun a => Fin.ext ?_)
  obtain ⟨-, -, -, -, e0, e1, -⟩ := idx t
  match a with
  | ⟨0, _⟩ => show win0_1.index t (0 : Fin 2) * 256 + 1 * (y 0).val = (y 0).val; rw [e0]; omega
  | ⟨1, _⟩ => show win0_1.index t (1 : Fin 2) * 2752 + 1 * (y 1).val = (y 1).val; rw [e1]; omega
theorem iblk2_apply (c : Dev nD) (t : Fin cfg0.N) (y : S1x256.Idx) : iblk m c 2 t y = V m c main_v3 y := by
  show V m c main_v3 (((cfg0.win 2).blk t).view.emb y) = _
  refine congrArg (V m c main_v3) (funext fun a => Fin.ext ?_)
  obtain ⟨-, -, -, -, -, -, e0, e1, -⟩ := idx t
  match a with
  | ⟨0, _⟩ => show win0_2.index t (0 : Fin 2) * 1 + 1 * (y 0).val = (y 0).val; rw [e0]; omega
  | ⟨1, _⟩ => show win0_2.index t (1 : Fin 2) * 256 + 1 * (y 1).val = (y 1).val; rw [e1]; omega
theorem iblk3_apply (c : Dev nD) (t : Fin cfg0.N) (y : S256x256.Idx) : iblk m c 3 t y = V m c main_arg3 y := by
  show V m c main_arg3 (((cfg0.win 3).blk t).view.emb y) = _
  refine congrArg (V m c main_arg3) (funext fun a => Fin.ext ?_)
  obtain ⟨-, -, -, -, -, -, -, -, e0, e1, -⟩ := idx t
  match a with
  | ⟨0, _⟩ => show win0_3.index t (0 : Fin 2) * 256 + 1 * (y 0).val = (y 0).val; rw [e0]; omega
  | ⟨1, _⟩ => show win0_3.index t (1 : Fin 2) * 256 + 1 * (y 1).val = (y 1).val; rw [e1]; omega
theorem iblk4_apply (c : Dev nD) (t : Fin cfg0.N) (y : S1x256.Idx) : iblk m c 4 t y = V m c main_v4 y := by
  show V m c main_v4 (((cfg0.win 4).blk t).view.emb y) = _
  refine congrArg (V m c main_v4) (funext fun a => Fin.ext ?_)
  obtain ⟨-, -, -, -, -, -, -, -, -, -, e0, e1, -⟩ := idx t
  match a with
  | ⟨0, _⟩ => show win0_4.index t (0 : Fin 2) * 1 + 1 * (y 0).val = (y 0).val; rw [e0]; omega
  | ⟨1, _⟩ => show win0_4.index t (1 : Fin 2) * 256 + 1 * (y 1).val = (y 1).val; rw [e1]; omega
theorem iblk5_apply (c : Dev nD) (t : Fin cfg0.N) (y : S128x256.Idx) : iblk m c 5 t y = V m c main_v1 y := by
  show V m c main_v1 (((cfg0.win 5).blk t).view.emb y) = _
  refine congrArg (V m c main_v1) (funext fun a => Fin.ext ?_)
  obtain ⟨-, -, -, -, -, -, -, -, -, -, -, -, e0, e1, -⟩ := idx t
  match a with
  | ⟨0, _⟩ => show win0_5.index t (0 : Fin 2) * 128 + 1 * (y 0).val = (y 0).val; rw [e0]; omega
  | ⟨1, _⟩ => show win0_5.index t (1 : Fin 2) * 256 + 1 * (y 1).val = (y 1).val; rw [e1]; omega
theorem iblk6_apply (c : Dev nD) (t : Fin cfg0.N) (y : S1x128.Idx) : iblk m c 6 t y = V m c main_v5 y := by
  show V m c main_v5 (((cfg0.win 6).blk t).view.emb y) = _
  refine congrArg (V m c main_v5) (funext fun a => Fin.ext ?_)
  obtain ⟨-, -, -, -, -, -, -, -, -, -, -, -, -, -, e0, e1⟩ := idx t
  match a with
  | ⟨0, _⟩ => show win0_6.index t (0 : Fin 2) * 1 + 1 * (y 0).val = (y 0).val; rw [e0]; omega
  | ⟨1, _⟩ => show win0_6.index t (1 : Fin 2) * 128 + 1 * (y 1).val = (y 1).val; rw [e1]; omega

/-! ## The output array after the region: the widened network on every row -/

/-- Entry `(R, q)` of the [16384, 128] output: the network on row `R` of the flattened events array, with the
    weights and bias rows as the region finds them, neuron `q` of the widened last layer. -/
def tileAt (c : Dev nD) (R : Fin 16384) (q : Fin 128) : EReal :=
  net (fun k : Fin 2752 => V m c main_v0 (ix2 R ⟨0 + k.val, by have := k.isLt; omega⟩))
    (fun k : Fin 2752 => V m c main_v0 (ix2 R ⟨2752 + k.val, by have := k.isLt; omega⟩))
    (fun k : Fin 2752 => V m c main_v0 (ix2 R ⟨5504 + k.val, by have := k.isLt; omega⟩))
    (fun j k => V m c main_arg1 (ix2 j k)) (fun j => V m c main_v3 (ix2 0 j))
    (fun j k => V m c main_arg3 (ix2 j k)) (fun j => V m c main_v4 (ix2 0 j))
    (fun j k => V m c main_v1 (ix2 j k)) (fun j => V m c main_v5 (ix2 0 j)) q

def tileNet (c : Dev nD) : S16384x128.Idx → EReal := fun i => tileAt m c (i 0) (i 1)

/-- WHAT POINT `t` WRITES BACK is block `t` of that array. -/
theorem flushed_eq (c : Dev nD) (t : Fin cfg0.N) :
    (dats m 0 c).flushed 7 t = ((cfg0.win 7).blk t).view.read (Elt Ideal) (tileNet m c) := by
  show (cfg0.win 7).cut (grid0.coords t) ((dats m 0 c).after 7 t) = _
  rw [after0_7]
  funext y
  have hy0 : (y 0).val < 256 := (y 0).isLt
  have hy1 : (y 1).val < 128 := (y 1).isLt
  have ht : t.val < 64 := t_lt t
  obtain ⟨-, -, e0, e1, -⟩ := idx t
  have hx : (cfg0.win 7).xinj (grid0.coords t) y = ix2 (⟨(y 0).val, hy0⟩ : Fin 256) (⟨(y 1).val, hy1⟩ : Fin 128) :=
    funext fun a => Fin.ext (by
      match a with
      | ⟨0, _⟩ => rfl
      | ⟨1, _⟩ => rfl)
  have he : (((cfg0.win 7).blk t).view.emb y : S16384x128.Idx)
      = ix2 (⟨t.val * 256 + (y 0).val, by omega⟩ : Fin 16384) (⟨(y 1).val, hy1⟩ : Fin 128) :=
    funext fun a => Fin.ext (by
      match a with
      | ⟨0, _⟩ => show win0_7.index t (0 : Fin 2) * 256 + 1 * (y 0).val = t.val * 256 + (y 0).val; rw [e0]; omega
      | ⟨1, _⟩ => show win0_7.index t (1 : Fin 2) * 128 + 1 * (y 1).val = (y 1).val; rw [e1]; omega)
  show out0_7 (iblk m c 0 t) (iblk m c 1 t) (iblk m c 2 t) (iblk m c 3 t) (iblk m c 4 t) (iblk m c 5 t) (iblk m c 6 t)
      ((cfg0.win 7).xinj (grid0.coords t) y) = tileNet m c (((cfg0.win 7).blk t).view.emb y)
  rw [hx, he, out_apply]
  show _ = tileAt m c _ _
  unfold tileAt
  exact net_ext _ _ (fun k => iblk0_apply m c t _ _) (fun k => iblk0_apply m c t _ _) (fun k => iblk0_apply m c t _ _)
    (fun j k => iblk1_apply m c t _) (fun j => iblk2_apply m c t _) (fun j k => iblk3_apply m c t _)
    (fun j => iblk4_apply m c t _) (fun k => iblk5_apply m c t _) (iblk6_apply m c t _)

/-- An index of the output array is in point `t`'s block iff each coordinate is in the block's range on its axis. -/
theorem mem_blk7 (t : Fin cfg0.N) (i : S16384x128.Idx) :
    i ∈ ((cfg0.win 7).blk t).view.set ↔ ∀ a : Fin 2, win0_7.index t a * S256x128.size a ≤ (i a).val
      ∧ (i a).val < win0_7.index t a * S256x128.size a + S256x128.size a := by
  show i ∈ ((View.whole main_v6).slice (win0_7.rect t)).set ↔ _
  rw [View.set_slice_whole, Rect.mem_set_unit]
  exact Iff.rfl

/-- Every row belongs to the block of the point `row / 256`. -/
theorem cover (i : S16384x128.Idx) : ∃ t : Fin cfg0.N, (cfg0.win 7).flush t = true ∧ i ∈ ((cfg0.win 7).blk t).view.set := by
  have hi0 : (i 0).val < 16384 := (i 0).isLt
  have hi1 : (i 1).val < 128 := (i 1).isLt
  have hN : cfg0.N = 64 := N_0
  obtain ⟨t, ht⟩ : ∃ t : Fin cfg0.N, t.val = (i 0).val / 256 := ⟨⟨(i 0).val / 256, by omega⟩, rfl⟩
  refine ⟨t, flush0_7 t, ?_⟩
  rw [mem_blk7]
  obtain ⟨-, -, e0, e1, -⟩ := idx t
  intro a
  match a with
  | ⟨0, _⟩ =>
    show win0_7.index t (0 : Fin 2) * 256 ≤ (i 0).val ∧ (i 0).val < win0_7.index t (0 : Fin 2) * 256 + 256
    rw [e0]; omega
  | ⟨1, _⟩ =>
    show win0_7.index t (1 : Fin 2) * 128 ≤ (i 1).val ∧ (i 1).val < win0_7.index t (1 : Fin 2) * 128 + 128
    rw [e1]; omega

/-- THE OUTPUT ARRAY after the run. -/
theorem final7 (c : Dev nD) : (dats m 0 c).arrAt 7 cfg0.N = tileNet m c :=
  (dats m 0 c).arrAt_eq_of_cover 7 (tileNet m c) (fun t _ => flushed_eq m c t) cover

/-! ## The arrays the region finds, entry by entry, from the arguments -/

/-- Column `tv·2752 + k` of row `R` of the flattened events array is the event `(R, tv, k)`. -/
theorem V_v0_apply (c : Dev nD) (R : Fin 16384) (tt : Fin 3) (k : Fin 2752) (col : Fin 8256) (tv : ℕ) (htv : tt.val = tv)
    (hc : col.val = tv * 2752 + k.val) :
    V m c main_v0 (ix2 R col) = m ((c : Thread nD τ).loc main_arg0) (ix3 R tt k) := by
  rw [V_v0]
  refine shapeCast_apply _ _ _ _ ?_
  show (S16384x3x2752.rowMajor (ix3 R tt k)).val = (S16384x8256.rowMajor (ix2 R col)).val
  rw [Shape.rowMajor_val_three, Shape.rowMajor_val_two]
  show (R.val * 3 + tt.val) * 2752 + k.val = R.val * 8256 + col.val
  omega

theorem V_v3_apply (c : Dev nD) (j : Fin 256) :
    V m c main_v3 (ix2 (0 : Fin 1) j) = m ((c : Thread nD τ).loc main_arg2) (ix1 j) := by
  rw [V_v3]; exact shapeCast_a_1a_apply _ _ 0 j

theorem V_v4_apply (c : Dev nD) (j : Fin 256) :
    V m c main_v4 (ix2 (0 : Fin 1) j) = m ((c : Thread nD τ).loc main_arg4) (ix1 j) := by
  rw [V_v4]; exact shapeCast_a_1a_apply _ _ 0 j

/-- The first 100 rows of the widened last layer's weights are the original rows. -/
theorem V_v1_apply (c : Dev nD) (q : Fin 128) (j : Fin 100) (hq : q.val = j.val) (k : Fin 256) :
    V m c main_v1 (ix2 q k) = m ((c : Thread nD τ).loc main_arg5) (ix2 j k) := by
  rw [V_v1]
  exact pad_apply_of_inside _ _ _ _ _ _ _ _ (ix2 j k) (fun a => by
    match a with
    | ⟨0, _⟩ => show q.val = 0 + j.val * (0 + 1); omega
    | ⟨1, _⟩ => show k.val = 0 + k.val * (0 + 1); omega)

/-- The first 100 biases of the widened last layer are the original ones. -/
theorem V_v5_apply (c : Dev nD) (q : Fin 128) (j : Fin 100) (hq : q.val = j.val) :
    V m c main_v5 (ix2 (0 : Fin 1) q) = m ((c : Thread nD τ).loc main_arg6) (ix1 j) := by
  rw [V_v5, shapeCast_a_1a_apply]
  exact pad_apply_of_inside _ _ _ _ _ _ _ _ (ix1 j) (fun a => by
    match a with
    | ⟨0, _⟩ => show q.val = 0 + j.val * (0 + 1); omega)

/-- On the first 100 columns the output array is `G` of the arguments. -/
theorem tile_eq_out (c : Dev nD) (R r : Fin 16384) (hR : R.val = r.val) (q : Fin 128) (j : Fin 100) (hq : q.val = j.val) :
    tileAt m c R q = outAt (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) (m ((c : Thread nD τ).loc main_arg6)) r j := by
  obtain rfl : R = r := Fin.ext hR
  unfold tileAt outAt
  refine net_ext q j (fun k => V_v0_apply m c R (0 : Fin 3) k _ 0 rfl (by show 0 + k.val = 0 * 2752 + k.val; omega))
    (fun k => V_v0_apply m c R (1 : Fin 3) k _ 1 rfl (by show 2752 + k.val = 1 * 2752 + k.val; omega))
    (fun k => V_v0_apply m c R (2 : Fin 3) k _ 2 rfl (by show 5504 + k.val = 2 * 2752 + k.val; omega))
    (fun i k => ?_) (fun i => V_v3_apply m c i) (fun i k => ?_) (fun i => V_v4_apply m c i)
    (fun k => V_v1_apply m c q j hq k) (V_v5_apply m c q j hq)
  · rw [V_main_arg1]
  · rw [V_main_arg3]

/-! ## The result: the first 100 columns -/

/-- After the run the result buffer holds `G` of the arguments. -/
theorem tail_eq (c : Dev nD) :
    Pipeline.afterTail₀ cfgs (dats m) 0 (V0 m) [hostOps1] c main_v7
      = G (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) (m ((c : Thread nD τ).loc main_arg6)) := by
  unfold Pipeline.afterTail₀
  show StableHlo.after hostOps1 _ (Proc.devRef .tc main_v7) = _
  after_results
  have hw : Pipeline.withArrays (cfgs 0).spec c (V0 m c) (fun w => (dats m 0 c).arrAt w (cfgs 0).N) (Proc.devRef .tc main_v6)
      = tileNet m c := (Pipeline.withArrays_arr spec0 launch0.win.arr_inj c _ _ 7).trans (final7 m c)
  rw [hw]
  funext i
  obtain ⟨r, j, rfl⟩ : ∃ (r : Fin 16384) (j : Fin 100), i = ix2 r j := ⟨i 0, i 1, eq_ix2 i⟩
  rw [Cert.LibSlice2.slice2_apply 0 0 (tileNet m c) _ r j (by have := r.isLt; omega) (by have := j.isLt; omega), G_apply]
  exact tile_eq_out m c _ r (Nat.zero_add _) _ j (Nat.zero_add _)

/-- THE KERNEL'S RUN, read: every weakly fair execution terminates with the result buffer at `G` of the arguments
    and the arguments unchanged. -/
theorem run : θ_run defs (onTc (τ := τ) (main (F := Ideal))) ⟨m, fun _ => 0, ρ⟩ (fun r => ∀ c : Dev nD,
      r.2.mem ((c.tc : Thread nD τ).loc main_v7)
        = G (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
            (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨((h c).2 main_v7 (Pipeline.mem_restRefs_of main_v7 (by decide) (by decide))).trans (tail_eq m c),
      (((h c).2 main_arg0 (Pipeline.mem_restRefs_of main_arg0 (by decide) (by decide))).trans (W_main_arg0 m (dats m) c)),
      ((h c).1 1).trans (((dats m 0 c).arrAt_in 1 rfl _).trans ((A_eq m c 1).trans (V_main_arg1 m c))),
      (((h c).2 main_arg2 (Pipeline.mem_restRefs_of main_arg2 (by decide) (by decide))).trans (W_main_arg2 m (dats m) c)),
      ((h c).1 3).trans (((dats m 0 c).arrAt_in 3 rfl _).trans ((A_eq m c 3).trans (V_main_arg3 m c))),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c)),
      (((h c).2 main_arg6 (Pipeline.mem_restRefs_of main_arg6 (by decide) (by decide))).trans (W_main_arg6 m (dats m) c))⟩)
    (run_main m ρ)

end Cert.KernelIdeal.KValue

end
-- ==== Proof.LibPlainDot.lean ====
/-
  A plain matrix product M×K by K×N into a zero accumulator, read at an entry over the extended reals: entry (p, q)
  is the sum over c of lhs (p, c) · rhs (c, q). The contraction index, a one-axis multi-index, is re-indexed to its
  one coordinate.
-/
import Idealize.ShloMosaic.Lib.ValueIdx
import Idealize.ShloMosaic.PureOps.Ideal.Laws

namespace Cert.LibPlainDot

open Idealize.ShloMosaic Idealize.ShloMosaic.ValueIdx

/-- The left operand's index at result entry `(p, q)` and contraction coordinate `c` is `(p, c)`. -/
theorem plain_lhsIdx (M K N : ℕ) (p : Fin M) (q : Fin N) (c : Fin K) :
    (DotDims.plain M K N).lhsIdx (ix2 p q) ((contrEquiv1 (DotDims.plain M K N) K rfl rfl).symm c) = ix2 p c := by
  funext a
  refine Fin.ext ?_
  match a with
  | ⟨0, _⟩ => rfl
  | ⟨1, _⟩ =>
    show ((DotDims.plain M K N).lhsIdx (ix2 p q) ((contrEquiv1 (DotDims.plain M K N) K rfl rfl).symm c) 1).val = c.val
    rw [(DotDims.plain M K N).lhsIdx_val_of_single (cl := 1) rfl]
    exact contrEquiv1_symm_val (DotDims.plain M K N) K rfl rfl c

/-- The right operand's index there is `(c, q)`. -/
theorem plain_rhsIdx (M K N : ℕ) (p : Fin M) (q : Fin N) (c : Fin K) :
    (DotDims.plain M K N).rhsIdx (ix2 p q) ((contrEquiv1 (DotDims.plain M K N) K rfl rfl).symm c) = ix2 c q := by
  funext a
  refine Fin.ext ?_
  match a with
  | ⟨0, _⟩ =>
    show ((DotDims.plain M K N).rhsIdx (ix2 p q) ((contrEquiv1 (DotDims.plain M K N) K rfl rfl).symm c) 0).val = c.val
    rw [(DotDims.plain M K N).rhsIdx_val_of_single (cr := 0) rfl]
    exact contrEquiv1_symm_val (DotDims.plain M K N) K rfl rfl c
  | ⟨1, _⟩ => rfl

/-- Entry `(p, q)` of a plain product into the zero accumulator is `∑ c, lhs (p, c) · rhs (c, q)`. -/
theorem matmul_plain_zero_apply {φ₁ φ₂ : FTy} (M K N : ℕ) (prec : Option ContractPrecision)
    (lhs : FVec Ideal ⟨2, ![M, K]⟩ φ₁) (rhs : FVec Ideal ⟨2, ![K, N]⟩ φ₂) (p : Fin M) (q : Fin N) :
    FloatOps.matmul (DotDims.plain M K N) prec lhs rhs (constant ⟨2, ![M, N]⟩ .f32 0x00000000#32) (ix2 p q)
      = ∑ c : Fin K, lhs (ix2 p c) * rhs (ix2 c q) := by
  rw [Ideal.matmul_constant_zero_apply, ← Equiv.sum_comp (contrEquiv1 (DotDims.plain M K N) K rfl rfl).symm]
  refine Finset.sum_congr rfl fun c _ => ?_
  rw [plain_lhsIdx, plain_rhsIdx]

end Cert.LibPlainDot
-- ==== Proof.LibHostRows.lean ====
/-
  Host operations on rank-2 arrays read at an entry, over the extended reals: a plain matrix product
  (`dot_general` M×K by K×N) as the sum over the contracted coordinate; the `broadcast_in_dim` forms of a
  keep-dimensions reduction ([b]→[1,b], [1,b]→[a,b], [a]→[a,1], [a,1]→[a,b], scalar→any); a rank-3 array cut
  along its leading axis; and a host sum along the rows of a matrix as the initial value plus the row's sum.
-/
import proofs.«179507_j86474871538275_2_alg».proof.Proof.LibPlainDot
import Idealize.ShloMosaic.Lib.Pipeline.Value
import Idealize.ShloMosaic.Lib.ValueIdx
import Idealize.ShloMosaic.PureOps.Ideal.Laws

namespace Cert.LibHostRows

open Idealize.ShloMosaic Idealize.ShloMosaic.ValueIdx

variable {α : Type}

/-- Entry `(p, q)` of the host's plain product is `∑ c, lhs (p, c) · rhs (c, q)`. -/
theorem dotGeneral_plain_apply {φ₁ φ₂ : FTy} (M K N : ℕ) (prec : Option ContractPrecision)
    (lhs : FVec Ideal ⟨2, ![M, K]⟩ φ₁) (rhs : FVec Ideal ⟨2, ![K, N]⟩ φ₂) (p : Fin M) (q : Fin N) :
    Host.dotGeneral (F := Ideal) (DotDims.plain M K N) prec lhs rhs (ix2 p q) = ∑ c : Fin K, lhs (ix2 p c) * rhs (ix2 c q) := by
  show FloatOps.dotGeneral (DotDims.plain M K N) prec .single lhs rhs (ix2 p q) = _
  rw [Ideal.dotGeneral_apply, ← Equiv.sum_comp (contrEquiv1 (DotDims.plain M K N) K rfl rfl).symm]
  refine Finset.sum_congr rfl fun c _ => ?_
  rw [Cert.LibPlainDot.plain_lhsIdx, Cert.LibPlainDot.plain_rhsIdx]

/-- A vector `[b]` placed as the one row of `[1, b]` reads, at `(u, c)`, the vector's entry `c`. -/
theorem broadcastInDim_b_1b_apply {b : ℕ} (v : (⟨1, ![b]⟩ : Shape).Idx → α)
    (h : (⟨1, ![b]⟩ : Shape).BroadcastsInDim ⟨2, ![1, b]⟩ (![1] : Fin 1 → Fin 2)) (u : Fin 1) (c : Fin b) :
    broadcastInDim ⟨2, ![1, b]⟩ (![1] : Fin 1 → Fin 2) h v (ix2 u c) = v (ix1 c) := by
  refine broadcastInDim_apply _ h v (ix2 u c) (ix1 c) fun ax => ?_
  match ax with
  | ⟨0, _⟩ =>
    show c.val = if b = 1 then 0 else c.val
    split
    · have := c.isLt; omega
    · rfl

/-- A row `[1, b]` repeated down `[a, b]` reads, at `(p, c)`, the row's entry `c`. -/
theorem broadcastInDim_1b_ab_apply {a b : ℕ} (v : (⟨2, ![1, b]⟩ : Shape).Idx → α)
    (h : (⟨2, ![1, b]⟩ : Shape).BroadcastsInDim ⟨2, ![a, b]⟩ (![0, 1] : Fin 2 → Fin 2)) (p : Fin a) (c : Fin b) :
    broadcastInDim ⟨2, ![a, b]⟩ (![0, 1] : Fin 2 → Fin 2) h v (ix2 p c) = v (ix2 (0 : Fin 1) c) := by
  refine broadcastInDim_apply _ h v (ix2 p c) (ix2 (0 : Fin 1) c) fun ax => ?_
  match ax with
  | ⟨0, _⟩ => rfl
  | ⟨1, _⟩ =>
    show c.val = if b = 1 then 0 else c.val
    split
    · have := c.isLt; omega
    · rfl

/-- A vector `[a]` placed as the one column of `[a, 1]` reads, at `(p, u)`, the vector's entry `p`. -/
theorem broadcastInDim_a_a1_apply {a : ℕ} (v : (⟨1, ![a]⟩ : Shape).Idx → α)
    (h : (⟨1, ![a]⟩ : Shape).BroadcastsInDim ⟨2, ![a, 1]⟩ (![0] : Fin 1 → Fin 2)) (p : Fin a) (u : Fin 1) :
    broadcastInDim ⟨2, ![a, 1]⟩ (![0] : Fin 1 → Fin 2) h v (ix2 p u) = v (ix1 p) := by
  refine broadcastInDim_apply _ h v (ix2 p u) (ix1 p) fun ax => ?_
  match ax with
  | ⟨0, _⟩ =>
    show p.val = if a = 1 then 0 else p.val
    split
    · have := p.isLt; omega
    · rfl

/-- A column `[a, 1]` repeated along `[a, b]` reads, at `(p, c)`, the column's entry of row `p`. -/
theorem broadcastInDim_a1_ab_apply {a b : ℕ} (v : (⟨2, ![a, 1]⟩ : Shape).Idx → α)
    (h : (⟨2, ![a, 1]⟩ : Shape).BroadcastsInDim ⟨2, ![a, b]⟩ (![0, 1] : Fin 2 → Fin 2)) (p : Fin a) (c : Fin b) :
    broadcastInDim ⟨2, ![a, b]⟩ (![0, 1] : Fin 2 → Fin 2) h v (ix2 p c) = v (ix2 p (0 : Fin 1)) := by
  refine broadcastInDim_apply _ h v (ix2 p c) (ix2 p (0 : Fin 1)) fun ax => ?_
  match ax with
  | ⟨0, _⟩ =>
    show p.val = if a = 1 then 0 else p.val
    split
    · have := p.isLt; omega
    · rfl
  | ⟨1, _⟩ => rfl

/-- A scalar spread over any shape reads the scalar everywhere. -/
theorem broadcastInDim_scalar_apply {t : Shape} (v : (⟨0, ![]⟩ : Shape).Idx → α)
    (h : (⟨0, ![]⟩ : Shape).BroadcastsInDim t (![] : Fin 0 → Fin t.rank)) (j : t.Idx) :
    broadcastInDim t (![] : Fin 0 → Fin t.rank) h v j = v ix0 :=
  broadcastInDim_apply _ h v j ix0 fun ax => ax.elim0

/-- A rank-3 array cut along its leading axis from `o` reads, at `(j, d, e)`, the source at `(k, d, e)` with `k = o + j`. -/
theorem slice3_axis0_apply {n0 n1 n2 m : ℕ} (o : ℕ) (X : (⟨3, ![n0, n1, n2]⟩ : Shape).Idx → α)
    (h : (⟨3, ![n0, n1, n2]⟩ : Shape).Slices ![o, 0, 0] ⟨3, ![m, n1, n2]⟩)
    (j : Fin m) (d : Fin n1) (e : Fin n2) (k : Fin n0) (hk : k.val = o + j.val) :
    extractStridedSlice ⟨3, ![m, n1, n2]⟩ ![o, 0, 0] X h (ix3 j d e) = X (ix3 k d e) :=
  extractStridedSlice_apply _ _ _ _ _ (fun ax => by
    match ax with
    | ⟨0, _⟩ => exact hk
    | ⟨1, _⟩ => exact (Nat.zero_add _).symm
    | ⟨2, _⟩ => exact (Nat.zero_add _).symm)

/-- The host's sum of a matrix along its rows, read at row `p`: the initial value plus the sum of the row. -/
theorem hostReduceAdd_rows_apply {φ : FTy} {a b : ℕ} (x : FVec Ideal ⟨2, ![a, b]⟩ φ) (init : (⟨0, ![]⟩ : Shape).Idx → Ideal φ)
    (h : (⟨2, ![a, b]⟩ : Shape).ReducesTo [1] ⟨1, ![a]⟩) (hu : 0 < (⟨0, ![]⟩ : Shape).numel) (p : Fin a) :
    Host.reduceAdd (F := Ideal) x init h hu (ix1 p) = init ix0 + ∑ k : Fin b, x (ix2 p k) := by
  show Ideal.hostReduceAdd h x (init (Shape.Idx.first hu)) (ix1 p) = _
  rw [Ideal.hostReduceAdd_single h ⟨h.1, Nat.one_pos, h.2⟩ x _ (ix1 p), eq_ix0 (Shape.Idx.first hu)]
  refine congrArg (init ix0 + ·) (Finset.sum_congr rfl fun k _ => congrArg x ?_)
  funext d
  match d with
  | ⟨0, _⟩ => rfl
  | ⟨1, _⟩ => rfl

end Cert.LibHostRows
-- ==== Proof.HostForm.lean ====
/-
  The reference's array operations, in the spelling jax lowers them to, gathered into the neuron's three moves
  (charge, fire, reset), a layer's current (a matrix product with the transposed weights plus the broadcast bias),
  a layer over the three time steps and the three-layer network — each an ARRAY over all rows of the batch; and each
  read at an entry (r, j) as the row-wise mathematics of Spec.lean for row r.
-/
import proofs.«179507_j86474871538275_2_alg».proof.Proof.Spec
import proofs.«179507_j86474871538275_2_alg».proof.Proof.LibHostRows
import Idealize.ShloMosaic.Lib.ValueLayout
import Idealize.ShloMosaic.Lib.Pipeline.Value
import Idealize.ShloMosaic.PureOps.Ideal.Laws

noncomputable section

namespace Cert.Snn.HostForm

open Idealize.ShloMosaic Idealize.ShloMosaic.ValueIdx Cert.Snn

/-! ## The neuron's moves, entry by entry -/

section Pointwise
variable {S : Shape} (hs : (⟨0, ![]⟩ : Shape).BroadcastsInDim S (![] : Fin 0 → Fin S.rank))

/-- A scalar constant spread over the array. -/
def hConst (w : BitVec 32) : FVec Ideal S .f32 :=
  broadcastInDim S (![] : Fin 0 → Fin S.rank) hs (constant (F := Ideal) ⟨0, ![]⟩ .f32 w)

/-- `v + (h − v) / 2`. -/
def hCharge (v h : FVec Ideal S .f32) : FVec Ideal S .f32 :=
  addf v (Host.divf (subf h v) (hConst hs 0x40000000#32))

/-- `[u − 1 ≥ 0]` as a float: the comparison's bit converted. -/
def hFire (u : FVec Ideal S .f32) : FVec Ideal S .f32 :=
  uitofp .f32 (cmpf .oge (subf u (hConst hs 0x3F800000#32)) (hConst hs 0x00000000#32))

/-- `u · (1 − fire u)`. -/
def hLeak (u : FVec Ideal S .f32) : FVec Ideal S .f32 :=
  mulf u (subf (hConst hs 0x3F800000#32) (hFire hs u))

theorem hConst_apply (w : BitVec 32) (i : S.Idx) : hConst hs w i = Ideal.ofBits .f32 w :=
  Cert.LibHostRows.broadcastInDim_scalar_apply _ hs i

theorem hCharge_apply (v h : FVec Ideal S .f32) (i : S.Idx) : hCharge hs v h i = charge (v i) (h i) := by
  show v i + Ideal.div (h i - v i) (hConst hs 0x40000000#32 i) = _
  rw [hConst_apply]; rfl

theorem hFire_apply (u : FVec Ideal S .f32) (i : S.Idx) : hFire hs u i = fire (u i) := by
  show bit (Ideal.cmp .oge (u i - hConst hs 0x3F800000#32 i) (hConst hs 0x00000000#32 i)) = _
  rw [hConst_apply, hConst_apply]; rfl

theorem hLeak_apply (u : FVec Ideal S .f32) (i : S.Idx) : hLeak hs u i = leak (u i) := by
  show u i * (hConst hs 0x3F800000#32 i - hFire hs u i) = _
  rw [hConst_apply, hFire_apply]; rfl

end Pointwise

/-! ## A layer -/

section Layer
variable {N K J : ℕ} (D : DotDims ⟨2, ![N, K]⟩ ⟨2, ![K, J]⟩ ⟨2, ![N, J]⟩)
  (hT : (⟨2, ![J, K]⟩ : Shape).Transposes [1, 0] ⟨2, ![K, J]⟩)
  (hb1 : (⟨1, ![J]⟩ : Shape).BroadcastsInDim ⟨2, ![1, J]⟩ (![1] : Fin 1 → Fin 2))
  (hb2 : (⟨2, ![1, J]⟩ : Shape).BroadcastsInDim ⟨2, ![N, J]⟩ (![0, 1] : Fin 2 → Fin 2))
  (hs : (⟨0, ![]⟩ : Shape).BroadcastsInDim ⟨2, ![N, J]⟩ (![] : Fin 0 → Fin 2))

/-- The currents into a layer's neurons for all input rows: the rows times the transposed weights, plus the bias
    placed as a row and repeated down the rows. -/
def hCur (s : FVec Ideal ⟨2, ![N, K]⟩ .f32) (W : FVec Ideal ⟨2, ![J, K]⟩ .f32) (b : FVec Ideal ⟨1, ![J]⟩ .f32) :
    FVec Ideal ⟨2, ![N, J]⟩ .f32 :=
  addf (Host.dotGeneral D none s (transpose ⟨2, ![K, J]⟩ [1, 0] W hT))
    (broadcastInDim ⟨2, ![N, J]⟩ (![0, 1] : Fin 2 → Fin 2) hb2 (broadcastInDim ⟨2, ![1, J]⟩ (![1] : Fin 1 → Fin 2) hb1 b))

variable (ia ib ic : FVec Ideal ⟨2, ![N, K]⟩ .f32) (W : FVec Ideal ⟨2, ![J, K]⟩ .f32) (b : FVec Ideal ⟨1, ![J]⟩ .f32)

def hUa : FVec Ideal ⟨2, ![N, J]⟩ .f32 := hCharge hs (hConst hs 0x00000000#32) (hCur D hT hb1 hb2 ia W b)
def hSa : FVec Ideal ⟨2, ![N, J]⟩ .f32 := hFire hs (hUa D hT hb1 hb2 hs ia W b)
def hVa : FVec Ideal ⟨2, ![N, J]⟩ .f32 := hLeak hs (hUa D hT hb1 hb2 hs ia W b)
def hUb : FVec Ideal ⟨2, ![N, J]⟩ .f32 := hCharge hs (hVa D hT hb1 hb2 hs ia W b) (hCur D hT hb1 hb2 ib W b)
def hSb : FVec Ideal ⟨2, ![N, J]⟩ .f32 := hFire hs (hUb D hT hb1 hb2 hs ia ib W b)
def hVb : FVec Ideal ⟨2, ![N, J]⟩ .f32 := hLeak hs (hUb D hT hb1 hb2 hs ia ib W b)
def hUc : FVec Ideal ⟨2, ![N, J]⟩ .f32 := hCharge hs (hVb D hT hb1 hb2 hs ia ib W b) (hCur D hT hb1 hb2 ic W b)
def hSc : FVec Ideal ⟨2, ![N, J]⟩ .f32 := hFire hs (hUc D hT hb1 hb2 hs ia ib ic W b)

variable (hD : D = DotDims.plain N K J)
include hD

/-- The current into neuron `j` for row `r`. -/
theorem hCur_apply (r : Fin N) (j : Fin J) :
    hCur D hT hb1 hb2 ia W b (ix2 r j) = lin (fun k => ia (ix2 r k)) (fun k => W (ix2 j k)) (b (ix1 j)) := by
  subst hD
  show Host.dotGeneral (F := Ideal) (DotDims.plain N K J) none ia (transpose ⟨2, ![K, J]⟩ [1, 0] W hT) (ix2 r j)
    + broadcastInDim ⟨2, ![N, J]⟩ (![0, 1] : Fin 2 → Fin 2) hb2 (broadcastInDim ⟨2, ![1, J]⟩ (![1] : Fin 1 → Fin 2) hb1 b) (ix2 r j) = _
  rw [Cert.LibHostRows.dotGeneral_plain_apply, Cert.LibHostRows.broadcastInDim_1b_ab_apply, Cert.LibHostRows.broadcastInDim_b_1b_apply]
  unfold lin
  refine congrArg (· + b (ix1 j)) (Finset.sum_congr rfl fun k _ => ?_)
  rw [transpose_ix2_apply]

theorem hUa_apply (r : Fin N) (j : Fin J) :
    hUa D hT hb1 hb2 hs ia W b (ix2 r j) = ua (fun k => ia (ix2 r k)) (fun j k => W (ix2 j k)) (fun j => b (ix1 j)) j := by
  unfold hUa
  rw [hCharge_apply, hConst_apply, hCur_apply D hT hb1 hb2 ia W b hD]; rfl

theorem hSa_apply (r : Fin N) (j : Fin J) :
    hSa D hT hb1 hb2 hs ia W b (ix2 r j) = sa (fun k => ia (ix2 r k)) (fun j k => W (ix2 j k)) (fun j => b (ix1 j)) j :=
  (hFire_apply hs _ _).trans (congrArg fire (hUa_apply D hT hb1 hb2 hs ia W b hD r j))

theorem hVa_apply (r : Fin N) (j : Fin J) :
    hVa D hT hb1 hb2 hs ia W b (ix2 r j) = va (fun k => ia (ix2 r k)) (fun j k => W (ix2 j k)) (fun j => b (ix1 j)) j :=
  (hLeak_apply hs _ _).trans (congrArg leak (hUa_apply D hT hb1 hb2 hs ia W b hD r j))

theorem hUb_apply (r : Fin N) (j : Fin J) :
    hUb D hT hb1 hb2 hs ia ib W b (ix2 r j)
      = ub (fun k => ia (ix2 r k)) (fun k => ib (ix2 r k)) (fun j k => W (ix2 j k)) (fun j => b (ix1 j)) j := by
  unfold hUb
  rw [hCharge_apply, hVa_apply D hT hb1 hb2 hs ia W b hD, hCur_apply D hT hb1 hb2 ib W b hD]; rfl

theorem hSb_apply (r : Fin N) (j : Fin J) :
    hSb D hT hb1 hb2 hs ia ib W b (ix2 r j)
      = sb (fun k => ia (ix2 r k)) (fun k => ib (ix2 r k)) (fun j k => W (ix2 j k)) (fun j => b (ix1 j)) j :=
  (hFire_apply hs _ _).trans (congrArg fire (hUb_apply D hT hb1 hb2 hs ia ib W b hD r j))

theorem hVb_apply (r : Fin N) (j : Fin J) :
    hVb D hT hb1 hb2 hs ia ib W b (ix2 r j)
      = vb (fun k => ia (ix2 r k)) (fun k => ib (ix2 r k)) (fun j k => W (ix2 j k)) (fun j => b (ix1 j)) j :=
  (hLeak_apply hs _ _).trans (congrArg leak (hUb_apply D hT hb1 hb2 hs ia ib W b hD r j))

theorem hUc_apply (r : Fin N) (j : Fin J) :
    hUc D hT hb1 hb2 hs ia ib ic W b (ix2 r j)
      = uc (fun k => ia (ix2 r k)) (fun k => ib (ix2 r k)) (fun k => ic (ix2 r k)) (fun j k => W (ix2 j k)) (fun j => b (ix1 j)) j := by
  unfold hUc
  rw [hCharge_apply, hVb_apply D hT hb1 hb2 hs ia ib W b hD, hCur_apply D hT hb1 hb2 ic W b hD]; rfl

theorem hSc_apply (r : Fin N) (j : Fin J) :
    hSc D hT hb1 hb2 hs ia ib ic W b (ix2 r j)
      = sc (fun k => ia (ix2 r k)) (fun k => ib (ix2 r k)) (fun k => ic (ix2 r k)) (fun j k => W (ix2 j k)) (fun j => b (ix1 j)) j :=
  (hFire_apply hs _ _).trans (congrArg fire (hUc_apply D hT hb1 hb2 hs ia ib ic W b hD r j))

/-- A layer's spikes along row `r`, as the row-wise spikes. -/
theorem hSa_row (r : Fin N) :
    (fun j => hSa D hT hb1 hb2 hs ia W b (ix2 r j)) = sa (fun k => ia (ix2 r k)) (fun j k => W (ix2 j k)) (fun j => b (ix1 j)) :=
  funext fun j => hSa_apply D hT hb1 hb2 hs ia W b hD r j
theorem hSb_row (r : Fin N) :
    (fun j => hSb D hT hb1 hb2 hs ia ib W b (ix2 r j))
      = sb (fun k => ia (ix2 r k)) (fun k => ib (ix2 r k)) (fun j k => W (ix2 j k)) (fun j => b (ix1 j)) :=
  funext fun j => hSb_apply D hT hb1 hb2 hs ia ib W b hD r j
theorem hSc_row (r : Fin N) :
    (fun j => hSc D hT hb1 hb2 hs ia ib ic W b (ix2 r j))
      = sc (fun k => ia (ix2 r k)) (fun k => ib (ix2 r k)) (fun k => ic (ix2 r k)) (fun j k => W (ix2 j k)) (fun j => b (ix1 j)) :=
  funext fun j => hSc_apply D hT hb1 hb2 hs ia ib ic W b hD r j

end Layer

/-! ## The network on all rows -/

section Net
variable {N D H n : ℕ}
  (D1 : DotDims ⟨2, ![N, D]⟩ ⟨2, ![D, H]⟩ ⟨2, ![N, H]⟩) (D2 : DotDims ⟨2, ![N, H]⟩ ⟨2, ![H, H]⟩ ⟨2, ![N, H]⟩)
  (D3 : DotDims ⟨2, ![N, H]⟩ ⟨2, ![H, n]⟩ ⟨2, ![N, n]⟩)
  (hT1 : (⟨2, ![H, D]⟩ : Shape).Transposes [1, 0] ⟨2, ![D, H]⟩) (hT2 : (⟨2, ![H, H]⟩ : Shape).Transposes [1, 0] ⟨2, ![H, H]⟩)
  (hT3 : (⟨2, ![n, H]⟩ : Shape).Transposes [1, 0] ⟨2, ![H, n]⟩)
  (hb1H : (⟨1, ![H]⟩ : Shape).BroadcastsInDim ⟨2, ![1, H]⟩ (![1] : Fin 1 → Fin 2))
  (hb2H : (⟨2, ![1, H]⟩ : Shape).BroadcastsInDim ⟨2, ![N, H]⟩ (![0, 1] : Fin 2 → Fin 2))
  (hsH : (⟨0, ![]⟩ : Shape).BroadcastsInDim ⟨2, ![N, H]⟩ (![] : Fin 0 → Fin 2))
  (hb1n : (⟨1, ![n]⟩ : Shape).BroadcastsInDim ⟨2, ![1, n]⟩ (![1] : Fin 1 → Fin 2))
  (hb2n : (⟨2, ![1, n]⟩ : Shape).BroadcastsInDim ⟨2, ![N, n]⟩ (![0, 1] : Fin 2 → Fin 2))
  (hsn : (⟨0, ![]⟩ : Shape).BroadcastsInDim ⟨2, ![N, n]⟩ (![] : Fin 0 → Fin 2))
  (xa xb xc : FVec Ideal ⟨2, ![N, D]⟩ .f32) (W1 : FVec Ideal ⟨2, ![H, D]⟩ .f32) (b1 : FVec Ideal ⟨1, ![H]⟩ .f32)
  (W2 : FVec Ideal ⟨2, ![H, H]⟩ .f32) (b2 : FVec Ideal ⟨1, ![H]⟩ .f32)
  (W3 : FVec Ideal ⟨2, ![n, H]⟩ .f32) (b3 : FVec Ideal ⟨1, ![n]⟩ .f32)

/-- The last layer's spikes at the last step, for all rows. -/
def hNet : FVec Ideal ⟨2, ![N, n]⟩ .f32 :=
  hSc D3 hT3 hb1n hb2n hsn (hSa D2 hT2 hb1H hb2H hsH (hSa D1 hT1 hb1H hb2H hsH xa W1 b1) W2 b2)
    (hSb D2 hT2 hb1H hb2H hsH (hSa D1 hT1 hb1H hb2H hsH xa W1 b1) (hSb D1 hT1 hb1H hb2H hsH xa xb W1 b1) W2 b2)
    (hSc D2 hT2 hb1H hb2H hsH (hSa D1 hT1 hb1H hb2H hsH xa W1 b1) (hSb D1 hT1 hb1H hb2H hsH xa xb W1 b1)
      (hSc D1 hT1 hb1H hb2H hsH xa xb xc W1 b1) W2 b2) W3 b3

theorem hNet_apply (h1 : D1 = DotDims.plain N D H) (h2 : D2 = DotDims.plain N H H) (h3 : D3 = DotDims.plain N H n)
    (r : Fin N) (j : Fin n) :
    hNet D1 D2 D3 hT1 hT2 hT3 hb1H hb2H hsH hb1n hb2n hsn xa xb xc W1 b1 W2 b2 W3 b3 (ix2 r j)
      = net (fun k => xa (ix2 r k)) (fun k => xb (ix2 r k)) (fun k => xc (ix2 r k))
          (fun j k => W1 (ix2 j k)) (fun j => b1 (ix1 j)) (fun j k => W2 (ix2 j k)) (fun j => b2 (ix1 j))
          (fun j k => W3 (ix2 j k)) (fun j => b3 (ix1 j)) j := by
  unfold hNet net
  rw [hSc_apply D3 hT3 hb1n hb2n hsn _ _ _ W3 b3 h3, hSa_row D2 hT2 hb1H hb2H hsH _ W2 b2 h2,
    hSb_row D2 hT2 hb1H hb2H hsH _ _ W2 b2 h2, hSc_row D2 hT2 hb1H hb2H hsH _ _ _ W2 b2 h2,
    hSa_row D1 hT1 hb1H hb2H hsH xa W1 b1 h1, hSb_row D1 hT1 hb1H hb2H hsH xa xb W1 b1 h1,
    hSc_row D1 hT1 hb1H hb2H hsH xa xb xc W1 b1 h1]

end Net

end Cert.Snn.HostForm

end
-- ==== Proof.RefValue.lean ====
/-
  The reference's result, read off its generated run: the run's composed term IS the three-layer network of
  HostForm.lean on the whole batch — its two hundred array operations regrouped into the neuron's moves — with the
  inputs of time step t the rows (·, t, ·) of the events array (a transpose, a slice and a reshape); hence the
  function `G` of the argument arrays.
-/
import proofs.«179507_j86474871538275_2_alg».proof.Proof.Gen.ReferenceIdeal.Run
import proofs.«179507_j86474871538275_2_alg».proof.Proof.HostForm
import proofs.«179507_j86474871538275_2_alg».proof.Proof.Whole

noncomputable section

namespace Cert.ReferenceIdeal.RefValue

open Cert.ReferenceIdeal Cert.ReferenceIdeal.Gen Cert.ReferenceIdeal.Value
open Idealize.ShloMosaic Idealize.ShloMosaic.ValueIdx Cert.Snn Cert.Snn.HostForm

variable (V : Valuation τ sig (Elt Ideal))

/-- The batch's inputs at the three time steps: slice `t` of the events array with the time axis moved first. -/
def rows0 : FVec Ideal S16384x2752 .f32 :=
  shapeCast S16384x2752 (extractStridedSlice S1x16384x2752 ![0, 0, 0] (res_main_v0 V) slices_S3x16384x2752_S1x16384x2752_0_0_0)
    shapeCasts_S1x16384x2752_S16384x2752
def rows1 : FVec Ideal S16384x2752 .f32 :=
  shapeCast S16384x2752 (extractStridedSlice S1x16384x2752 ![1, 0, 0] (res_main_v0 V) slices_S3x16384x2752_S1x16384x2752_1_0_0)
    shapeCasts_S1x16384x2752_S16384x2752
def rows2 : FVec Ideal S16384x2752 .f32 :=
  shapeCast S16384x2752 (extractStridedSlice S1x16384x2752 ![2, 0, 0] (res_main_v0 V) slices_S3x16384x2752_S1x16384x2752_2_0_0)
    shapeCasts_S1x16384x2752_S16384x2752

/-- The run's result term. -/
def result : FVec Ideal S16384x100 .f32 :=
  uitofp .f32 (cmpf .oge (subf (res_main_v154 V) (broadcastInDim S16384x100 ![] bcast_S_S16384x100 (constant S_ .f32 0x3F800000#32)))
    (broadcastInDim S16384x100 ![] bcast_S_S16384x100 (constant S_ .f32 0x00000000#32)))

/-- The run's operations ARE the network's, regrouped. -/
theorem result_eq_net :
    result V = hNet dot_S16384x2752_S2752x256_S16384x256_1_0_0_1_n_n dot_S16384x256_S256x256_S16384x256_1_0_0_1_n_n
      dot_S16384x256_S256x100_S16384x100_1_0_0_1_n_n transposes_S256x2752_S2752x256_1_0 transposes_S256x256_S256x256_1_0
      transposes_S100x256_S256x100_1_0 bcast_S256_S1x256_1 bcast_S1x256_S16384x256_0_1 bcast_S_S16384x256
      bcast_S100_S1x100_1 bcast_S1x100_S16384x100_0_1 bcast_S_S16384x100
      (rows0 V) (rows1 V) (rows2 V) (V (Proc.devRef .tc main_arg1)) (V (Proc.devRef .tc main_arg2))
      (V (Proc.devRef .tc main_arg3)) (V (Proc.devRef .tc main_arg4)) (V (Proc.devRef .tc main_arg5))
      (V (Proc.devRef .tc main_arg6)) := rfl

/-- Row `r` at time step 0, 1, 2 is row `(r, t, ·)` of the events array. -/
theorem rows0_apply (r : Fin 16384) (k : Fin 2752) :
    rows0 V (ix2 r k) = V (Proc.devRef .tc main_arg0) (ix3 r (0 : Fin 3) k) := by
  unfold rows0
  rw [shapeCast_1ab_ab_apply, Cert.LibHostRows.slice3_axis0_apply 0 _ _ (0 : Fin 1) r k (0 : Fin 3) rfl]
  unfold res_main_v0
  exact transpose_apply _ _ _ _ _ fun c => match c with | ⟨0, _⟩ => rfl | ⟨1, _⟩ => rfl | ⟨2, _⟩ => rfl
theorem rows1_apply (r : Fin 16384) (k : Fin 2752) :
    rows1 V (ix2 r k) = V (Proc.devRef .tc main_arg0) (ix3 r (1 : Fin 3) k) := by
  unfold rows1
  rw [shapeCast_1ab_ab_apply, Cert.LibHostRows.slice3_axis0_apply 1 _ _ (0 : Fin 1) r k (1 : Fin 3) rfl]
  unfold res_main_v0
  exact transpose_apply _ _ _ _ _ fun c => match c with | ⟨0, _⟩ => rfl | ⟨1, _⟩ => rfl | ⟨2, _⟩ => rfl
theorem rows2_apply (r : Fin 16384) (k : Fin 2752) :
    rows2 V (ix2 r k) = V (Proc.devRef .tc main_arg0) (ix3 r (2 : Fin 3) k) := by
  unfold rows2
  rw [shapeCast_1ab_ab_apply, Cert.LibHostRows.slice3_axis0_apply 2 _ _ (0 : Fin 1) r k (2 : Fin 3) rfl]
  unfold res_main_v0
  exact transpose_apply _ _ _ _ _ fun c => match c with | ⟨0, _⟩ => rfl | ⟨1, _⟩ => rfl | ⟨2, _⟩ => rfl

/-- The reference's result is `G` of the argument arrays. -/
theorem result_eq :
    result V = G (V (Proc.devRef .tc main_arg0)) (V (Proc.devRef .tc main_arg1)) (V (Proc.devRef .tc main_arg2))
      (V (Proc.devRef .tc main_arg3)) (V (Proc.devRef .tc main_arg4)) (V (Proc.devRef .tc main_arg5))
      (V (Proc.devRef .tc main_arg6)) := by
  funext i
  obtain ⟨r, j, rfl⟩ : ∃ (r : Fin 16384) (j : Fin 100), i = ix2 r j := ⟨i 0, i 1, eq_ix2 i⟩
  rw [result_eq_net, G_apply]
  refine (hNet_apply _ _ _ _ _ _ _ _ _ _ _ _ (rows0 V) (rows1 V) (rows2 V) _ _ _ _ _ _ rfl rfl rfl r j).trans ?_
  unfold outAt
  rw [funext (rows0_apply V r), funext (rows1_apply V r), funext (rows2_apply V r)]

end Cert.ReferenceIdeal.RefValue

end
-- ==== Proof.lean ====
/-
  The certificate of a three-layer spiking network (leaky integrate-and-fire neurons, three time steps) as a Pallas
  kernel tiled over the batch, against its jnp reference.

  Both programs compute, for batch row r and output neuron j, the function `Cert.Snn.G` (Proof/Whole.lean, over
  Proof/Spec.lean): each layer's current is the inner product of its input row with the neuron's weights plus its
  bias; a neuron charges half way towards its current, fires when it reaches 1 and is then reset to 0; the result is
  the last layer's spikes at the third step. The kernel flattens the events to [16384, 3·2752] and reads the three
  time steps as column slabs, contracts against the weights' rows (no transpose is formed), widens the last layer
  from 100 to 128 neurons and cuts the 28 extra columns off afterwards; the reference moves the time axis first,
  slices it, and multiplies by the transposed weights. At the extended reals these are the same sums and the same
  neuron arithmetic in the same order, so no law of arithmetic beyond re-indexing the sums is used, and the
  precondition (finite inputs) is never opened.

  The kernel's side is read off the generated frame run (Proof/KernelValue.lean: what each grid point writes back,
  the 64 blocks covering the output, the host's final slice), the reference's off its generated run
  (Proof/RefValue.lean); `preserves` is trivial (the idealization rewrote nothing).
-/
import proofs.«179507_j86474871538275_2_alg».proof.Defs
import proofs.«179507_j86474871538275_2_alg».proof.Proof.Gen.Kernel
import proofs.«179507_j86474871538275_2_alg».proof.Proof.Gen.Kernel.Skeleton
import proofs.«179507_j86474871538275_2_alg».proof.Proof.Gen.Kernel.Launch
import proofs.«179507_j86474871538275_2_alg».proof.Proof.Gen.Kernel.Points
import proofs.«179507_j86474871538275_2_alg».proof.Proof.Gen.Kernel.Frame
import proofs.«179507_j86474871538275_2_alg».proof.Proof.Gen.KernelIdeal
import proofs.«179507_j86474871538275_2_alg».proof.Proof.Gen.KernelIdeal.Skeleton
import proofs.«179507_j86474871538275_2_alg».proof.Proof.Gen.KernelIdeal.Launch
import proofs.«179507_j86474871538275_2_alg».proof.Proof.Gen.KernelIdeal.Points
import proofs.«179507_j86474871538275_2_alg».proof.Proof.Gen.KernelIdeal.Frame
import proofs.«179507_j86474871538275_2_alg».proof.Proof.Gen.ReferenceIdeal
import proofs.«179507_j86474871538275_2_alg».proof.Proof.Gen.ReferenceIdeal.Run
import proofs.«179507_j86474871538275_2_alg».proof.Proof.Gen.Pre_finite_inputs
import proofs.«179507_j86474871538275_2_alg».proof.Proof.KernelValue
import proofs.«179507_j86474871538275_2_alg».proof.Proof.RefValue
import Idealize.ShloMosaic.Adequacy
import Idealize.ShloMosaic.Init

noncomputable section

namespace Cert.Proof

open Idealize.ShloMosaic Idealize.ShloMosaic.TcCoe Idealize.SL.Sem

/-- The three programs run and leave their arguments unchanged. -/
theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both idealized programs end with the result buffer at `G` of the (agreeing) arguments. -/
theorem algebraic : Cert.algebraic_KernelIdeal_ReferenceIdeal := by
  intro m ρ m' ρ' _ hagree
  refine ⟨fun c => Cert.Snn.G
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6)),
    Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.RefValue.result_eq (StableHlo.launchContents m' c)).trans ?_
  show Cert.Snn.G
      (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg2))
      (m' ((c.tc : Thread Cert.ReferenceIdeal.nD Cert.ReferenceIdeal.τ).loc Cert.ReferenceIdeal.main_arg3))
      (m' ((c.tc : Thread Cert.ReferenceIdeal.nD Cert.ReferenceIdeal.τ).loc Cert.ReferenceIdeal.main_arg4))
      (m' ((c.tc : Thread Cert.ReferenceIdeal.nD Cert.ReferenceIdeal.τ).loc Cert.ReferenceIdeal.main_arg5))
      (m' ((c.tc : Thread Cert.ReferenceIdeal.nD Cert.ReferenceIdeal.τ).loc Cert.ReferenceIdeal.main_arg6)) = _
  rw [(hagree c).1, (hagree c).2.1, (hagree c).2.2.1, (hagree c).2.2.2.1, (hagree c).2.2.2.2.1, (hagree c).2.2.2.2.2.1,
    (hagree c).2.2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
